-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x24x24 : Shape := ⟨4, ![64, 2048, 24, 24]⟩
abbrev S64 : Shape := ⟨1, ![64]⟩
abbrev S_ : Shape := ⟨0, ![]⟩

class Facts : Prop where
  bcast_S_S64x2048x24x24 : S_.BroadcastsInDim S64x2048x24x24 (![] : Fin 0 → Fin S64x2048x24x24.rank)
  reducesTo_S64x2048x24x24_S_d0_1_2_3 : S64x2048x24x24.ReducesTo [0, 1, 2, 3] S_
  h_S_ : 0 < S_.numel

variable [Facts]

def fn {F : FTy → Type} [FloatOps F] (main_arg0 : FVec F S64x2048x24x24 .f32) (main_arg1 : FVec F S64x2048x24x24 .f32) (main_arg2 : IVec S64 32) : IVec S_ 1 :=
  let main_v0 : FVec F S64x2048x24x24 .f32 := Host.absf main_arg0
  let main_cst : FVec F S_ .f32 := constant S_ .f32 0x7F800000#32
  let main_v1 : FVec F S64x2048x24x24 .f32 := broadcastInDim S64x2048x24x24 ![] bcast_S_S64x2048x24x24 main_cst
  let main_v2 : IVec S64x2048x24x24 1 := cmpf .olt main_v0 main_v1
  let main_c : IVec S_ 1 := constantI S_ 1 1#1
  let main_v3 : IVec S_ 1 := (fun x v => Host.reduce IntOp.andi x v reducesTo_S64x2048x24x24_S_d0_1_2_3 h_S_) main_v2 main_c
  let main_v4 : FVec F S64x2048x24x24 .f32 := Host.absf main_arg1
  let main_cst_0 : FVec F S_ .f32 := constant S_ .f32 0x7F800000#32
  let main_v5 : FVec F S64x2048x24x24 .f32 := broadcastInDim S64x2048x24x24 ![] bcast_S_S64x2048x24x24 main_cst_0
  let main_v6 : IVec S64x2048x24x24 1 := cmpf .olt main_v4 main_v5
  let main_c_1 : IVec S_ 1 := constantI S_ 1 1#1
  let main_v7 : IVec S_ 1 := (fun x v => Host.reduce IntOp.andi x v reducesTo_S64x2048x24x24_S_d0_1_2_3 h_S_) main_v6 main_c_1
  let main_v8 : IVec S_ 1 := andi main_v3 main_v7
  main_v8
-- ==== Kernel.lean ====
abbrev S64x2048x24x24 : Shape := ⟨4, ![64, 2048, 24, 24]⟩
abbrev S64 : Shape := ⟨1, ![64]⟩
abbrev S64x2048x576 : Shape := ⟨3, ![64, 2048, 576]⟩
abbrev S64x576 : Shape := ⟨2, ![64, 576]⟩
abbrev S16x256x576 : Shape := ⟨3, ![16, 256, 576]⟩
abbrev S16x576 : Shape := ⟨2, ![16, 576]⟩
abbrev S16x64x576 : Shape := ⟨3, ![16, 64, 576]⟩
abbrev S_ : Shape := ⟨0, ![]⟩
abbrev S576x64 : Shape := ⟨2, ![576, 64]⟩
abbrev S64x64 : Shape := ⟨2, ![64, 64]⟩
abbrev S64x1 : Shape := ⟨2, ![64, 1]⟩
abbrev S1x64 : Shape := ⟨2, ![1, 64]⟩

abbrev nBuf : Space → Nat
  | .hbm => 63
  | .vmem => 8
  | .smem => 0
  | _ => 0

abbrev bufTy : (tb : Table) → Fin (tcTables nBuf tb) → BufTy
  | .hbm, ⟨0, _⟩ => ⟨S64x2048x24x24, .f32⟩
  | .hbm, ⟨1, _⟩ => ⟨S64x2048x24x24, .f32⟩
  | .hbm, ⟨2, _⟩ => ⟨S64, .i32⟩
  | .hbm, ⟨3, _⟩ => ⟨S64x2048x576, .f32⟩
  | .hbm, ⟨4, _⟩ => ⟨S64x2048x576, .f32⟩
  | .hbm, ⟨5, _⟩ => ⟨S64x576, .f32⟩
  | .hbm, ⟨6, _⟩ => ⟨S64x576, .f32⟩
  | .hbm, ⟨7, _⟩ => ⟨S64x576, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64x576, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S576x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x1, .f32⟩
  | .hbm, ⟨25, _⟩ => ⟨S1x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x1, .i32⟩
  | .hbm, ⟨34, _⟩ => ⟨S1x64, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S64x64, .i1⟩
  | .hbm, ⟨44, _⟩ => ⟨S64x64, .i1⟩
  | .hbm, ⟨45, _⟩ => ⟨S64x64, .i1⟩
  | .hbm, ⟨46, _⟩ => ⟨S64x64, .i32⟩
  | .hbm, ⟨47, _⟩ => ⟨S_, .i32⟩
  | .hbm, ⟨48, _⟩ => ⟨S_, .i32⟩
  | .hbm, ⟨49, _⟩ => ⟨S_, .f32⟩
  | .hbm, ⟨50, _⟩ => ⟨S_, .f32⟩
  | .hbm, ⟨51, _⟩ => ⟨S64x64, .f32⟩
  | .hbm, ⟨52, _⟩ => ⟨S64x64, .f32⟩
  | .hbm, ⟨53, _⟩ => ⟨S_, .f32⟩
  | .hbm, ⟨54, _⟩ => ⟨S_, .f32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S16x256x576, .f32⟩
  | .local _ .vmem, ⟨1, _⟩ => ⟨S16x256x576, .f32⟩
  | .local _ .vmem, ⟨2, _⟩ => ⟨S16x256x576, .f32⟩
  | .local _ .vmem, ⟨3, _⟩ => ⟨S16x256x576, .f32⟩
  | .local _ .vmem, ⟨4, _⟩ => ⟨S16x576, .f32⟩
  | .local _ .vmem, ⟨5, _⟩ => ⟨S16x576, .f32⟩
  | .local _ .vmem, ⟨6, _⟩ => ⟨S16x576, .f32⟩
  | .local _ .vmem, ⟨7, _⟩ => ⟨S16x576, .f32⟩
  | _, _ => ⟨S64x2048x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_cst_6 : Ref sig .tc := ⟨.hbm, 49, rfl⟩
abbrev main_call0_v0 : Ref sig .tc := ⟨.hbm, 50, rfl⟩
abbrev main_call0_v1 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_2 : BitVec 32 := 0#32
  let c4_i32 : BitVec 32 := 4#32
  let v5 : BitVec 32 := Scalar.addi c0_i32_2 c4_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg6 : BitVec 32 := Scf.iv c0_i32_2 c1_i32 k0_t1
  let c64_i32 : BitVec 32 := 64#32
  let v15 : BitVec 32 := Scalar.muli arg6 c64_i32
  v15
def k0_off1 (k0_t1 : Fin k0_t1_loop.trips) : Fin 3 → Nat :=
  let c0_11 : Index := 0#32
  let c0_i32_2 : BitVec 32 := 0#32
  let c1_i32 : BitVec 32 := 1#32
  let arg6 : BitVec 32 := Scf.iv c0_i32_2 c1_i32 k0_t1
  let c64_i32 : BitVec 32 := 64#32
  let v15 : BitVec 32 := Scalar.muli arg6 c64_i32
  let v16 : BitVec 32 := v15
  let v17 : Index := Scalar.indexCast v16
  let c0_12 : Index := 0#32
  ![0, v17.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64x2048x24x24_S64x2048x576 : S64x2048x24x24.ShapeCasts S64x2048x576
  inb_S16x576_S16x576_0_0 : ∀ a, (![0, 0] : Fin 2 → Nat) a + S16x576.size a ≤ S16x576.size a
  h_S16x576 : 0 < S16x576.numel
  h_S16x64x576 : 0 < S16x64x576.numel
  shapeCasts_S16x64x576_S16x64x576 : S16x64x576.ShapeCasts S16x64x576
  reduces_S16x64x576_S16x576 : S16x64x576.Reduces [1] S16x576
  shapeCasts_S16x576_S16x576 : S16x576.ShapeCasts S16x576
  reducesTo_S64x576_S64_d1 : S64x576.ReducesTo [1] S64
  h_S_ : 0 < S_.numel
  bcast_S_S64 : S_.BroadcastsInDim S64 (![] : Fin 0 → Fin S64.rank)
  transposes_S64x576_S576x64_1_0 : S64x576.Transposes [1, 0] S576x64
  bcast_S_S64x64 : S_.BroadcastsInDim S64x64 (![] : Fin 0 → Fin S64x64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  natLt_1_32 : 1 < 32
  reducesTo_S64x64_S_d0_1 : S64x64.ReducesTo [0, 1] S_
  dot_S64x576_S576x64_S64x64_1_0_0_1_n_n_wf : DotDims.WF S64x576 S576x64 S64x64 [1] [0] [0] [1] [] []
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S16x64x576.size a ≤ S16x256x576.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x576.size a ≤ S64x2048x576.size a
  hwx0_0 : ∀ i : grid0.Coords, EltTy.bits .f32 = 32 ∨ (Rect.block (s := S64x2048x576) S16x256x576.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x576.size a ≤ S64x2048x576.size a
  hwx0_1 : ∀ i : grid0.Coords, EltTy.bits .f32 = 32 ∨ (Rect.block (s := S64x2048x576) S16x256x576.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x576.size a ≤ S64x576.size a
  hwx0_2 : ∀ i : grid0.Coords, EltTy.bits .f32 = 32 ∨ (Rect.block (s := S64x576) S16x576.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x576.size a ≤ S64x576.size a
  hwx0_3 : ∀ i : grid0.Coords, EltTy.bits .f32 = 32 ∨ (Rect.block (s := S64x576) S16x576.size (cc0_transform_3 i) (hinb0_3 i)).WholeWords (EltTy.packing .f32)

variable [Facts₀]

def dot_S64x576_S576x64_S64x64_1_0_0_1_n_n : DotDims S64x576 S576x64 S64x64 where
  lhsContracting := [1]
  rhsContracting := [0]
  lhsNonContracting := [0]
  rhsNonContracting := [1]
  lhsBatch := []
  rhsBatch := []
  wf := dot_S64x576_S576x64_S64x64_1_0_0_1_n_n_wf

abbrev win0_0 : Pipeline.Window sig grid0 :=
  Pipeline.Window.ofSpec (Memref.whole main_v0) S16x256x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256x576.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S16x576.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S16x576.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048x24x24 : Shape := ⟨4, ![64, 2048, 24, 24]⟩
abbrev S64 : Shape := ⟨1, ![64]⟩
abbrev S_ : Shape := ⟨0, ![]⟩
abbrev S64x24x24 : Shape := ⟨3, ![64, 24, 24]⟩
abbrev S64x576 : Shape := ⟨2, ![64, 576]⟩
abbrev S64x64 : Shape := ⟨2, ![64, 64]⟩
abbrev S64x1 : Shape := ⟨2, ![64, 1]⟩
abbrev S1x64 : Shape := ⟨2, ![1, 64]⟩

abbrev nBuf : Space → Nat
  | .hbm => 66
  | .vmem => 0
  | .smem => 0
  | _ => 0

abbrev bufTy : (tb : Table) → Fin (tcTables nBuf tb) → BufTy
  | .hbm, ⟨0, _⟩ => ⟨S64x2048x24x24, .f32⟩
  | .hbm, ⟨1, _⟩ => ⟨S64x2048x24x24, .f32⟩
  | .hbm, ⟨2, _⟩ => ⟨S64, .i32⟩
  | .hbm, ⟨3, _⟩ => ⟨S64x2048x24x24, .f32⟩
  | .hbm, ⟨4, _⟩ => ⟨S_, .f32⟩
  | .hbm, ⟨5, _⟩ => ⟨S64x24x24, .f32⟩
  | .hbm, ⟨6, _⟩ => ⟨S64x576, .f32⟩
  | .hbm, ⟨7, _⟩ => ⟨S64x2048x24x24, .f32⟩
  | .hbm, ⟨8, _⟩ => ⟨S_, .f32⟩
  | .hbm, ⟨9, _⟩ => ⟨S64x24x24, .f32⟩
  | .hbm, ⟨10, _⟩ => ⟨S64x576, .f32⟩
  | .hbm, ⟨11, _⟩ => ⟨S64x576, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64x576, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x1, .f32⟩
  | .hbm, ⟨28, _⟩ => ⟨S1x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x1, .i32⟩
  | .hbm, ⟨37, _⟩ => ⟨S1x64, .i32⟩
  | .hbm, ⟨38, _⟩ => ⟨S64x64, .i32⟩
  | .hbm, ⟨39, _⟩ => ⟨S64x64, .i32⟩
  | .hbm, ⟨40, _⟩ => ⟨S64x64, .i1⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S64x64, .i1⟩
  | .hbm, ⟨47, _⟩ => ⟨S64x64, .i1⟩
  | .hbm, ⟨48, _⟩ => ⟨S64x64, .i1⟩
  | .hbm, ⟨49, _⟩ => ⟨S64x64, .i32⟩
  | .hbm, ⟨50, _⟩ => ⟨S_, .i32⟩
  | .hbm, ⟨51, _⟩ => ⟨S_, .i32⟩
  | .hbm, ⟨52, _⟩ => ⟨S_, .f32⟩
  | .hbm, ⟨53, _⟩ => ⟨S_, .f32⟩
  | .hbm, ⟨54, _⟩ => ⟨S64x64, .f32⟩
  | .hbm, ⟨55, _⟩ => ⟨S64x64, .f32⟩
  | .hbm, ⟨56, _⟩ => ⟨S_, .f32⟩
  | .hbm, ⟨57, _⟩ => ⟨S_, .f32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S64x2048x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_7 : Ref sig .tc := ⟨.hbm, 50, rfl⟩
abbrev main_v38 : Ref sig .tc := ⟨.hbm, 51, rfl⟩
abbrev main_cst_8 : Ref sig .tc := ⟨.hbm, 52, rfl⟩
abbrev main_call0_v0 : Ref sig .tc := ⟨.hbm, 53, rfl⟩
abbrev main_call0_v1 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_c_10 : Ref sig .tc := ⟨.hbm, 58, rfl⟩
abbrev main_v41 : Ref sig .tc := ⟨.hbm, 59, rfl⟩
abbrev main_c_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  reducesTo_S64x2048x24x24_S64x24x24_d1 : S64x2048x24x24.ReducesTo [1] S64x24x24
  h_S_ : 0 < S_.numel
  shapeCasts_S64x24x24_S64x576 : S64x24x24.ShapeCasts S64x576
  reducesTo_S64x576_S64_d1 : S64x576.ReducesTo [1] S64
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  natLt_1_32 : 1 < 32
  reducesTo_S64x64_S_d0_1 : S64x64.ReducesTo [0, 1] S_
  dot_S64x576_S64x576_S64x64_1_1_0_0_n_n_wf : DotDims.WF S64x576 S64x576 S64x64 [1] [1] [0] [0] [] []

variable [Facts₀]

def dot_S64x576_S64x576_S64x64_1_1_0_0_n_n : DotDims S64x576 S64x576 S64x64 where
  lhsContracting := [1]
  rhsContracting := [1]
  lhsNonContracting := [0]
  rhsNonContracting := [0]
  lhsBatch := []
  rhsBatch := []
  wf := dot_S64x576_S64x576_S64x64_1_1_0_0_n_n_wf

class Facts : Prop extends Facts₀ where

variable [Facts]
-- ==== Proof.K.Loop.lean ====
/-
  One grid point of the luminance kernel, as a function of what its four buffers hold.

  The point (bi, ci) sees a block x of 16 batch rows × 256 channels × 576 pixels of each input. The counted
  loop walks the block's four slabs of 64 channels: trip k adds to each running [16, 576] array the sum over
  the slab's channels of the squares (`k0_pay5`, `k0_pay6`). After the loop each output buffer receives
  "what it held + the loop's result" (`k0_pay7`, `k0_pay8`); at a point with ci = 0 the buffer is first
  overwritten with zeros (`k0_pay1`, `k0_pay2`), at every other point it still holds what the previous
  point left there.  Everything here holds at any float instance.
-/
import proofs.«180429_j48120813585001_2_alg».proof.Proof.Gen.Kernel.Frame
import proofs.«180429_j48120813585001_2_alg».proof.Proof.Gen.Kernel.Loops
import proofs.«180429_j48120813585001_2_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body: "the channel coordinate of the point is 0". -/
abbrev atFirst (i : grid0.Coords) : Prop :=
  (Scalar.cmpi .ne (Scalar.extui (Scalar.cmpi .eq (BitVec.ofNat 32 (i 1).val) 0#32)) 0#32) = 1#1

/-- In the row-major order of the 4 × 8 grid the channel coordinate is 0 exactly at the points ≡ 0 (mod 8). -/
theorem atFirst_iff : ∀ t : Fin cfg0.N, atFirst (grid0.coords t) ↔ t.val % 8 = 0 :=
  (by decide +kernel : ∀ t : Fin grid0.N, atFirst (grid0.coords t) ↔ t.val % 8 = 0)

/-- The offsets (0, 0) are the zero offsets. -/
theorem off00 : (![0, 0] : Fin 2 → ℕ) = fun _ => 0 := by
  funext a; fin_cases a <;> rfl

/-- The trip count of the loop, as the run states it. -/
abbrev nTrips : ℕ := Scf.trips k0_t1_loop.lb k0_t1_loop.ub k0_t1_loop.st

/-- Trip `k` on a pair of running sums: each gains the channel-sum of squares of slab `k` of its input block. -/
def tripPure (x0 x1 : Vec F S16x256x576 .f32) (k : Fin k0_t1_loop.trips)
    (acc : FVec F S16x576 .f32 × FVec F S16x576 .f32) : FVec F S16x576 .f32 × FVec F S16x576 .f32 :=
  (k0_pay5 acc.1 (View.ld x0 (Rect.unit (s := S16x256x576) (k0_off1 k) S16x64x576.size (k0_off1_inb k))),
   k0_pay6 acc.2 (View.ld x1 (Rect.unit (s := S16x256x576) (k0_off1 k) S16x64x576.size (k0_off1_inb k))))

/-- The running sums before trip `n`, from zero. -/
def loopPure (x0 x1 : Vec F S16x256x576 .f32) : ℕ → FVec F S16x576 .f32 × FVec F S16x576 .f32
  | 0 => (k0_pay3, k0_pay4)
  | k + 1 => if h : k < k0_t1_loop.trips then tripPure x0 x1 ⟨k, h⟩ (loopPure x0 x1 k) else loopPure x0 x1 k

/-- One trip of the loop on buffers holding `x0`, `x1` is `tripPure`: the loads read the slabs. -/
theorem tripR_eq (𝒱 : Variants) (c : Dev nD) (bd : Option 𝒱.V) (i : grid0.Coords)
    (arg2 : Memref sig .tc .vmem S16x256x576 .f32) (harg2 : arg2.IsWhole) (arg3 : Memref sig .tc .vmem S16x256x576 .f32) (harg3 : arg3.IsWhole)
    (arg4 : Memref sig .tc .vmem S16x576 .f32) (harg4 : arg4.IsWhole) (arg5 : Memref sig .tc .vmem S16x576 .f32) (harg5 : arg5.IsWhole)
    (x0 x1 : Vec F S16x256x576 .f32) (k : Fin k0_t1_loop.trips) (acc : FVec F S16x576 .f32 × FVec F S16x576 .f32) :
    tripR_k0_t1 (F := F) 𝒱 c bd i arg2 harg2 arg3 harg3 arg4 harg4 arg5 harg5 (harg2.unread x0) (harg3.unread x1) k acc
      = tripPure x0 x1 k acc := by
  unfold tripR_k0_t1 trip_k0_t1 tripPure
  simp only [View.readAt_eq_ld, harg2.read_unread, harg3.read_unread]

/-- The loop's carried value before trip `n` is `loopPure`. -/
theorem st_eq (𝒱 : Variants) (c : Dev nD) (bd : Option 𝒱.V) (i : grid0.Coords)
    (arg2 : Memref sig .tc .vmem S16x256x576 .f32) (harg2 : arg2.IsWhole) (arg3 : Memref sig .tc .vmem S16x256x576 .f32) (harg3 : arg3.IsWhole)
    (arg4 : Memref sig .tc .vmem S16x576 .f32) (harg4 : arg4.IsWhole) (arg5 : Memref sig .tc .vmem S16x576 .f32) (harg5 : arg5.IsWhole)
    (x0 x1 : Vec F S16x256x576 .f32) (n : ℕ) :
    st_k0_t1 (F := F) 𝒱 c bd i arg2 harg2 arg3 harg3 arg4 harg4 arg5 harg5 (harg2.unread x0) (harg3.unread x1) (k0_pay3, k0_pay4) n
      = loopPure x0 x1 n := by
  induction n with
  | zero => rfl
  | succ k ih =>
    rw [st_k0_t1.eq_2, ih, loopPure]
    unfold st_k0_t1Step
    split
    · exact tripR_eq 𝒱 c bd i arg2 harg2 arg3 harg3 arg4 harg4 arg5 harg5 x0 x1 _ _
    · rfl

end Cert.Kernel.Body

end
-- ==== Proof.K.Run.lean ====
/-
  The body's two runs.  On whole buffers holding the two input blocks `x0`, `x1`:
    * at a point whose channel coordinate is 0 the output buffers may hold anything; they end at
      zeros + the block's sums of squares (`k0_pay7 (…).1 k0_pay1`, `k0_pay8 (…).2 k0_pay2`);
    * at any other point they hold running sums `y2`, `y3` and end at `y2` + the block's sums, `y3` + ….
  The input buffers are handed back as they were.
-/
import proofs.«180429_j48120813585001_2_alg».proof.Proof.K.Loop

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a point with channel coordinate 0: zero-fill, the loop, the two additions. -/
theorem runFirst (c : Dev nD) (i : grid0.Coords) (arg2 : Memref sig .tc .vmem S16x256x576 .f32) (harg2 : arg2.IsWhole) (arg3 : Memref sig .tc .vmem S16x256x576 .f32) (harg3 : arg3.IsWhole) (arg4 : Memref sig .tc .vmem S16x576 .f32) (harg4 : arg4.IsWhole) (arg5 : Memref sig .tc .vmem S16x576 .f32) (harg5 : arg5.IsWhole) (hc0 : atFirst i)
    (x0 : Vec F S16x256x576 .f32) (x1 : Vec F S16x256x576 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ owns (c : Thread nD τ) arg4 fullShare (k0_pay7 (loopPure x0 x1 nTrips).1 (k0_pay1 (F := F)))
                ∗ owns (c : Thread nD τ) arg5 fullShare (k0_pay8 (loopPure x0 x1 nTrips).2 (k0_pay2 (F := F)))) -∗ K ⟨⟩))
          ⊢ wp frame (wpE (defs₀ (F := F)) Variants.none c none) E (cc0__lum_kernel i arg2 harg2 arg3 harg3 arg4 harg4 arg5 harg5) K := by
    intro E K
    simp only [cc0__lum_kernel_eq_skeleton]; unfold cc0__lum_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    sl_unfold_words
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_cons_self, View.mem_set_unit_zero off00 inb_S16x576_S16x576_0_0 y⟩),
        View.canon_cons_unit_zero off00, View.readCov_unit_zero _ off00, st_eq]
    · iexists _; isplitr; swap; · iexact H3
      ipureintro
      rw [View.read_writes_eq_canon _ _ _ (fun y => ⟨_, List.mem_cons_self, View.mem_set_unit_zero off00 inb_S16x576_S16x576_0_0 y⟩),
        View.canon_cons_unit_zero off00, View.readCov_unit_zero _ off00, st_eq]

set_option maxHeartbeats 1000000 in
/-- The run at a point with channel coordinate ≠ 0: the loop, then each output buffer's contents plus its sum. -/
theorem runLater (c : Dev nD) (i : grid0.Coords) (arg2 : Memref sig .tc .vmem S16x256x576 .f32) (harg2 : arg2.IsWhole) (arg3 : Memref sig .tc .vmem S16x256x576 .f32) (harg3 : arg3.IsWhole) (arg4 : Memref sig .tc .vmem S16x576 .f32) (harg4 : arg4.IsWhole) (arg5 : Memref sig .tc .vmem S16x576 .f32) (harg5 : arg5.IsWhole) (hc0 : ¬ atFirst i)
    (x0 : Vec F S16x256x576 .f32) (x1 : Vec F S16x256x576 .f32) (y2 y3 : Vec F S16x576 .f32) :
      ∀ (E : Set ℕ) (K : PUnit → sProp 𝕄),
        iprop(owns (c : Thread nD τ) arg2 fullShare x0 ∗ owns (c : Thread nD τ) arg3 fullShare x1 ∗ owns (c : Thread nD τ) arg4 fullShare y2 ∗ owns (c : Thread nD τ) arg5 fullShare y3
            ∗ (iprop(owns (c : Thread nD τ) arg2 fullShare x0 ∗ owns (c : Thread nD τ) arg3 fullShare x1
                ∗ owns (c : Thread nD τ) arg4 fullShare (k0_pay7 (loopPure x0 x1 nTrips).1 y2)
                ∗ owns (c : Thread nD τ) arg5 fullShare (k0_pay8 (loopPure x0 x1 nTrips).2 y3)) -∗ K ⟨⟩))
          ⊢ wp frame (wpE (defs₀ (F := F)) Variants.none c none) E (cc0__lum_kernel i arg2 harg2 arg3 harg3 arg4 harg4 arg5 harg5) K := by
    intro E K
    simp only [cc0__lum_kernel_eq_skeleton]; unfold cc0__lum_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    sl_unfold_words
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_cons_self, View.mem_set_unit_zero off00 inb_S16x576_S16x576_0_0 y⟩),
        View.canon_unit_zero off00, View.readAt_eq_ld, harg4.read_unread, View.ld_unit_zero off00, st_eq]
    · iexists _; isplitr; swap; · iexact H3
      ipureintro
      rw [View.read_writes_eq_canon _ _ _ (fun y => ⟨_, List.mem_cons_self, View.mem_set_unit_zero off00 inb_S16x576_S16x576_0_0 y⟩),
        View.canon_unit_zero off00, View.readAt_eq_ld, harg5.read_unread, View.ld_unit_zero off00, st_eq]

end Cert.Kernel.Body

end
-- ==== Proof.K.Frame.lean ====
/-
  The frame run of the luminance kernel.

  The grid is 4 batch blocks × 8 channel blocks, walked in row-major order, so point t has channel block
  t mod 8.  Each output window's block depends on the batch block only: its buffer is written back after
  the points ≡ 7 (mod 8) and carried from point to point in between.  What the two output buffers hold after
  point t is therefore a recursion on t: at t ≡ 0 (mod 8) "zeros + this block's sums of squares", otherwise
  "what point t − 1 left + this block's sums" (`outs`).  With that proof data the body obligation is the
  two runs, chosen by t mod 8, and the library's launch theorem gives the run of the whole program: the
  argument arrays end as they began, the output arrays hold the write-backs, and the host operations after
  the region are applied on top.
-/
import proofs.«180429_j48120813585001_2_alg».proof.Proof.K.Run

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`, as the pipeline passes it to the body. -/
abbrev buf0 (t : Fin cfg0.N) : Memref sig .tc .vmem S16x256x576 .f32 := win0_0.stage (cfg0.slots t 0)
abbrev hbuf0 (t : Fin cfg0.N) : (buf0 t).IsWhole := hstage0_0 ((cfg0.slots t 0).cast nbuf0_0)
abbrev buf1 (t : Fin cfg0.N) : Memref sig .tc .vmem S16x256x576 .f32 := win0_1.stage (cfg0.slots t 1)
abbrev hbuf1 (t : Fin cfg0.N) : (buf1 t).IsWhole := hstage0_1 ((cfg0.slots t 1).cast nbuf0_1)
abbrev buf2 (t : Fin cfg0.N) : Memref sig .tc .vmem S16x576 .f32 := win0_2.stage (cfg0.slots t 2)
abbrev hbuf2 (t : Fin cfg0.N) : (buf2 t).IsWhole := hstage0_2 ((cfg0.slots t 2).cast nbuf0_2)
abbrev buf3 (t : Fin cfg0.N) : Memref sig .tc .vmem S16x576 .f32 := win0_3.stage (cfg0.slots t 3)
abbrev hbuf3 (t : Fin cfg0.N) : (buf3 t).IsWhole := hstage0_3 ((cfg0.slots t 3).cast nbuf0_3)

/-- The loop's result at point `t`: the sums of squares over the 256 channels of the point's two input blocks. -/
def blockSums (c : Dev nD) (t : Fin cfg0.N) : FVec F S16x576 .f32 × FVec F S16x576 .f32 :=
  loopPure (iblk m c 0 t) (iblk m c 1 t) nTrips

/-- THE ACCUMULATION: what the two output buffers hold after the body at position `n`. -/
def outs (c : Dev nD) : (n : ℕ) → n < cfg0.N → Vec F S16x576 .f32 × Vec F S16x576 .f32
  | 0, hn => (k0_pay7 (blockSums m c ⟨0, hn⟩).1 (k0_pay1 (F := F)), k0_pay8 (blockSums m c ⟨0, hn⟩).2 (k0_pay2 (F := F)))
  | n + 1, hn =>
    if (n + 1) % 8 = 0 then
      (k0_pay7 (blockSums m c ⟨n + 1, hn⟩).1 (k0_pay1 (F := F)), k0_pay8 (blockSums m c ⟨n + 1, hn⟩).2 (k0_pay2 (F := F)))
    else
      (k0_pay7 (blockSums m c ⟨n + 1, hn⟩).1 (outs c n (Nat.lt_of_succ_lt hn)).1,
       k0_pay8 (blockSums m c ⟨n + 1, hn⟩).2 (outs c n (Nat.lt_of_succ_lt hn)).2)

/-- `outs` at a point of channel block 0. -/
theorem outs_first (c : Dev nD) (t : Fin cfg0.N) (h0 : t.val % 8 = 0) :
    outs m c t.val t.isLt = (k0_pay7 (blockSums m c t).1 (k0_pay1 (F := F)), k0_pay8 (blockSums m c t).2 (k0_pay2 (F := F))) := by
  obtain ⟨n, hn⟩ := t
  cases n with
  | zero => rfl
  | succ n => exact (if_pos h0).trans rfl

/-- `outs` at a point of a later channel block: over what the point before left. -/
theorem outs_later (c : Dev nD) (t : Fin cfg0.N) (h0 : ¬t.val % 8 = 0) :
    outs m c t.val t.isLt
      = (k0_pay7 (blockSums m c t).1 (outs m c (t.val - 1) (Nat.lt_of_le_of_lt (Nat.sub_le _ _) t.isLt)).1,
         k0_pay8 (blockSums m c t).2 (outs m c (t.val - 1) (Nat.lt_of_le_of_lt (Nat.sub_le _ _) t.isLt)).2) := by
  obtain ⟨n, hn⟩ := t
  cases n with
  | zero => exact absurd (Nat.zero_mod _) h0
  | succ n => exact (if_neg h0).trans rfl

/-! ## The proof data -/

/-- The arrays as the region finds them; after the body at point `t` each input buffer at its block and the output
    buffers at `outs`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outs m c t.val t.isLt).1
    | ⟨3, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outs m c t.val t.isLt).1 := by dsimp only [dats]
theorem after3 (c : Dev nD) (t : Fin cfg0.N) : (dats m 0 c).after 3 t = (outs m c t.val t.isLt).2 := by dsimp only [dats]

/-- Each input's current buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a point of a later channel block each output's current buffer holds what the point before left: the point is
    not the first and the buffer was not written back in between (write-backs follow the points ≡ 7 mod 8). -/
theorem before2_later (c : Dev nD) (t : Fin cfg0.N) (h0 : ¬t.val % 8 = 0) (d) :
    (dats m 0 c).before 2 t d = (outs m c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_later (c : Dev nD) (t : Fin cfg0.N) (h0 : ¬t.val % 8 = 0) (d) :
    (dats m 0 c).before 3 t d = (outs m c (t.val - 1) (Nat.lt_of_le_of_lt (Nat.sub_le _ _) t.isLt)).2 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t))

set_option maxHeartbeats 800000 in
/-- The body at any point: the inputs' buffers hold their blocks; t mod 8 says which run applies; at a later channel
    block the outputs' buffers hold what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 8 = 0
  · rw [outs_first m c t h0]
    iintro ⟨HΦ, Ho, ⟨%d0, H0⟩, ⟨%d1, H1⟩, ⟨%d2, H2⟩, ⟨%d3, H3⟩⟩
    iapply ((runFirst c (grid0.coords t) _ _ _ _ _ _ _ _ ((atFirst_iff t).mpr h0) (iblk m c 0 t) (iblk m c 1 t)) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outs_later m c t h0]
    simp only [before2_later m c t h0, before3_later m c t h0]
    iintro ⟨HΦ, Ho, ⟨%d0, H0⟩, ⟨%d1, H1⟩, ⟨%d2, H2⟩, ⟨%d3, H3⟩⟩
    iapply ((runLater c (grid0.coords t) _ _ _ _ _ _ _ _ (fun h => h0 ((atFirst_iff t).mp h)) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates; every array of the
    pipeline ends at what the proof data's write-backs make of it, every other buffer at what the host operations
    after the region compute from those. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3])
    (hsub := sfx_sub) (hfresh := sfx_fresh) (hkeep := sfx_keeps)
    (hmain := hmain m Variants.none) (hA := A_eq m) (hΦ := fun _ _ => rfl)

/-- THE FRAME: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KI.Loop.lean ====
/-
  One grid point of the luminance kernel, as a function of what its four buffers hold.

  The point (bi, ci) sees a block x of 16 batch rows × 256 channels × 576 pixels of each input. The counted
  loop walks the block's four slabs of 64 channels: trip k adds to each running [16, 576] array the sum over
  the slab's channels of the squares (`k0_pay5`, `k0_pay6`). After the loop each output buffer receives
  "what it held + the loop's result" (`k0_pay7`, `k0_pay8`); at a point with ci = 0 the buffer is first
  overwritten with zeros (`k0_pay1`, `k0_pay2`), at every other point it still holds what the previous
  point left there.  Everything here holds at any float instance.
-/
import proofs.«180429_j48120813585001_2_alg».proof.Proof.Gen.KernelIdeal.Frame
import proofs.«180429_j48120813585001_2_alg».proof.Proof.Gen.KernelIdeal.Loops
import proofs.«180429_j48120813585001_2_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body: "the channel coordinate of the point is 0". -/
abbrev atFirst (i : grid0.Coords) : Prop :=
  (Scalar.cmpi .ne (Scalar.extui (Scalar.cmpi .eq (BitVec.ofNat 32 (i 1).val) 0#32)) 0#32) = 1#1

/-- In the row-major order of the 4 × 8 grid the channel coordinate is 0 exactly at the points ≡ 0 (mod 8). -/
theorem atFirst_iff : ∀ t : Fin cfg0.N, atFirst (grid0.coords t) ↔ t.val % 8 = 0 :=
  (by decide +kernel : ∀ t : Fin grid0.N, atFirst (grid0.coords t) ↔ t.val % 8 = 0)

/-- The offsets (0, 0) are the zero offsets. -/
theorem off00 : (![0, 0] : Fin 2 → ℕ) = fun _ => 0 := by
  funext a; fin_cases a <;> rfl

/-- The trip count of the loop, as the run states it. -/
abbrev nTrips : ℕ := Scf.trips k0_t1_loop.lb k0_t1_loop.ub k0_t1_loop.st

/-- Trip `k` on a pair of running sums: each gains the channel-sum of squares of slab `k` of its input block. -/
def tripPure (x0 x1 : Vec F S16x256x576 .f32) (k : Fin k0_t1_loop.trips)
    (acc : FVec F S16x576 .f32 × FVec F S16x576 .f32) : FVec F S16x576 .f32 × FVec F S16x576 .f32 :=
  (k0_pay5 acc.1 (View.ld x0 (Rect.unit (s := S16x256x576) (k0_off1 k) S16x64x576.size (k0_off1_inb k))),
   k0_pay6 acc.2 (View.ld x1 (Rect.unit (s := S16x256x576) (k0_off1 k) S16x64x576.size (k0_off1_inb k))))

/-- The running sums before trip `n`, from zero. -/
def loopPure (x0 x1 : Vec F S16x256x576 .f32) : ℕ → FVec F S16x576 .f32 × FVec F S16x576 .f32
  | 0 => (k0_pay3, k0_pay4)
  | k + 1 => if h : k < k0_t1_loop.trips then tripPure x0 x1 ⟨k, h⟩ (loopPure x0 x1 k) else loopPure x0 x1 k

/-- One trip of the loop on buffers holding `x0`, `x1` is `tripPure`: the loads read the slabs. -/
theorem tripR_eq (𝒱 : Variants) (c : Dev nD) (bd : Option 𝒱.V) (i : grid0.Coords)
    (arg2 : Memref sig .tc .vmem S16x256x576 .f32) (harg2 : arg2.IsWhole) (arg3 : Memref sig .tc .vmem S16x256x576 .f32) (harg3 : arg3.IsWhole)
    (arg4 : Memref sig .tc .vmem S16x576 .f32) (harg4 : arg4.IsWhole) (arg5 : Memref sig .tc .vmem S16x576 .f32) (harg5 : arg5.IsWhole)
    (x0 x1 : Vec F S16x256x576 .f32) (k : Fin k0_t1_loop.trips) (acc : FVec F S16x576 .f32 × FVec F S16x576 .f32) :
    tripR_k0_t1 (F := F) 𝒱 c bd i arg2 harg2 arg3 harg3 arg4 harg4 arg5 harg5 (harg2.unread x0) (harg3.unread x1) k acc
      = tripPure x0 x1 k acc := by
  unfold tripR_k0_t1 trip_k0_t1 tripPure
  simp only [View.readAt_eq_ld, harg2.read_unread, harg3.read_unread]

/-- The loop's carried value before trip `n` is `loopPure`. -/
theorem st_eq (𝒱 : Variants) (c : Dev nD) (bd : Option 𝒱.V) (i : grid0.Coords)
    (arg2 : Memref sig .tc .vmem S16x256x576 .f32) (harg2 : arg2.IsWhole) (arg3 : Memref sig .tc .vmem S16x256x576 .f32) (harg3 : arg3.IsWhole)
    (arg4 : Memref sig .tc .vmem S16x576 .f32) (harg4 : arg4.IsWhole) (arg5 : Memref sig .tc .vmem S16x576 .f32) (harg5 : arg5.IsWhole)
    (x0 x1 : Vec F S16x256x576 .f32) (n : ℕ) :
    st_k0_t1 (F := F) 𝒱 c bd i arg2 harg2 arg3 harg3 arg4 harg4 arg5 harg5 (harg2.unread x0) (harg3.unread x1) (k0_pay3, k0_pay4) n
      = loopPure x0 x1 n := by
  induction n with
  | zero => rfl
  | succ k ih =>
    rw [st_k0_t1.eq_2, ih, loopPure]
    unfold st_k0_t1Step
    split
    · exact tripR_eq 𝒱 c bd i arg2 harg2 arg3 harg3 arg4 harg4 arg5 harg5 x0 x1 _ _
    · rfl

end Cert.KernelIdeal.Body

end
-- ==== Proof.KI.Run.lean ====
/-
  The body's two runs.  On whole buffers holding the two input blocks `x0`, `x1`:
    * at a point whose channel coordinate is 0 the output buffers may hold anything; they end at
      zeros + the block's sums of squares (`k0_pay7 (…).1 k0_pay1`, `k0_pay8 (…).2 k0_pay2`);
    * at any other point they hold running sums `y2`, `y3` and end at `y2` + the block's sums, `y3` + ….
  The input buffers are handed back as they were.
-/
import proofs.«180429_j48120813585001_2_alg».proof.Proof.KI.Loop

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The run at a point with channel coordinate 0: zero-fill, the loop, the two additions. -/
theorem runFirst (c : Dev nD) (i : grid0.Coords) (arg2 : Memref sig .tc .vmem S16x256x576 .f32) (harg2 : arg2.IsWhole) (arg3 : Memref sig .tc .vmem S16x256x576 .f32) (harg3 : arg3.IsWhole) (arg4 : Memref sig .tc .vmem S16x576 .f32) (harg4 : arg4.IsWhole) (arg5 : Memref sig .tc .vmem S16x576 .f32) (harg5 : arg5.IsWhole) (hc0 : atFirst i)
    (x0 : Vec F S16x256x576 .f32) (x1 : Vec F S16x256x576 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ owns (c : Thread nD τ) arg4 fullShare (k0_pay7 (loopPure x0 x1 nTrips).1 (k0_pay1 (F := F)))
                ∗ owns (c : Thread nD τ) arg5 fullShare (k0_pay8 (loopPure x0 x1 nTrips).2 (k0_pay2 (F := F)))) -∗ K ⟨⟩))
          ⊢ wp frame (wpE (defs₀ (F := F)) Variants.none c none) E (cc0__lum_kernel i arg2 harg2 arg3 harg3 arg4 harg4 arg5 harg5) K := by
    intro E K
    simp only [cc0__lum_kernel_eq_skeleton]; unfold cc0__lum_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    sl_unfold_words
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_cons_self, View.mem_set_unit_zero off00 inb_S16x576_S16x576_0_0 y⟩),
        View.canon_cons_unit_zero off00, View.readCov_unit_zero _ off00, st_eq]
    · iexists _; isplitr; swap; · iexact H3
      ipureintro
      rw [View.read_writes_eq_canon _ _ _ (fun y => ⟨_, List.mem_cons_self, View.mem_set_unit_zero off00 inb_S16x576_S16x576_0_0 y⟩),
        View.canon_cons_unit_zero off00, View.readCov_unit_zero _ off00, st_eq]

set_option maxHeartbeats 1000000 in
/-- The run at a point with channel coordinate ≠ 0: the loop, then each output buffer's contents plus its sum. -/
theorem runLater (c : Dev nD) (i : grid0.Coords) (arg2 : Memref sig .tc .vmem S16x256x576 .f32) (harg2 : arg2.IsWhole) (arg3 : Memref sig .tc .vmem S16x256x576 .f32) (harg3 : arg3.IsWhole) (arg4 : Memref sig .tc .vmem S16x576 .f32) (harg4 : arg4.IsWhole) (arg5 : Memref sig .tc .vmem S16x576 .f32) (harg5 : arg5.IsWhole) (hc0 : ¬ atFirst i)
    (x0 : Vec F S16x256x576 .f32) (x1 : Vec F S16x256x576 .f32) (y2 y3 : Vec F S16x576 .f32) :
      ∀ (E : Set ℕ) (K : PUnit → sProp 𝕄),
        iprop(owns (c : Thread nD τ) arg2 fullShare x0 ∗ owns (c : Thread nD τ) arg3 fullShare x1 ∗ owns (c : Thread nD τ) arg4 fullShare y2 ∗ owns (c : Thread nD τ) arg5 fullShare y3
            ∗ (iprop(owns (c : Thread nD τ) arg2 fullShare x0 ∗ owns (c : Thread nD τ) arg3 fullShare x1
                ∗ owns (c : Thread nD τ) arg4 fullShare (k0_pay7 (loopPure x0 x1 nTrips).1 y2)
                ∗ owns (c : Thread nD τ) arg5 fullShare (k0_pay8 (loopPure x0 x1 nTrips).2 y3)) -∗ K ⟨⟩))
          ⊢ wp frame (wpE (defs₀ (F := F)) Variants.none c none) E (cc0__lum_kernel i arg2 harg2 arg3 harg3 arg4 harg4 arg5 harg5) K := by
    intro E K
    simp only [cc0__lum_kernel_eq_skeleton]; unfold cc0__lum_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    sl_unfold_words
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_eq_canon _ _ _ (fun y => ⟨_, List.mem_cons_self, View.mem_set_unit_zero off00 inb_S16x576_S16x576_0_0 y⟩),
        View.canon_unit_zero off00, View.readAt_eq_ld, harg4.read_unread, View.ld_unit_zero off00, st_eq]
    · iexists _; isplitr; swap; · iexact H3
      ipureintro
      rw [View.read_writes_eq_canon _ _ _ (fun y => ⟨_, List.mem_cons_self, View.mem_set_unit_zero off00 inb_S16x576_S16x576_0_0 y⟩),
        View.canon_unit_zero off00, View.readAt_eq_ld, harg5.read_unread, View.ld_unit_zero off00, st_eq]

end Cert.KernelIdeal.Body

end
-- ==== Proof.KI.Frame.lean ====
/-
  The frame run of the luminance kernel.

  The grid is 4 batch blocks × 8 channel blocks, walked in row-major order, so point t has channel block
  t mod 8.  Each output window's block depends on the batch block only: its buffer is written back after
  the points ≡ 7 (mod 8) and carried from point to point in between.  What the two output buffers hold after
  point t is therefore a recursion on t: at t ≡ 0 (mod 8) "zeros + this block's sums of squares", otherwise
  "what point t − 1 left + this block's sums" (`outs`).  With that proof data the body obligation is the
  two runs, chosen by t mod 8, and the library's launch theorem gives the run of the whole program: the
  argument arrays end as they began, the output arrays hold the write-backs, and the host operations after
  the region are applied on top.
-/
import proofs.«180429_j48120813585001_2_alg».proof.Proof.KI.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`, as the pipeline passes it to the body. -/
abbrev buf0 (t : Fin cfg0.N) : Memref sig .tc .vmem S16x256x576 .f32 := win0_0.stage (cfg0.slots t 0)
abbrev hbuf0 (t : Fin cfg0.N) : (buf0 t).IsWhole := hstage0_0 ((cfg0.slots t 0).cast nbuf0_0)
abbrev buf1 (t : Fin cfg0.N) : Memref sig .tc .vmem S16x256x576 .f32 := win0_1.stage (cfg0.slots t 1)
abbrev hbuf1 (t : Fin cfg0.N) : (buf1 t).IsWhole := hstage0_1 ((cfg0.slots t 1).cast nbuf0_1)
abbrev buf2 (t : Fin cfg0.N) : Memref sig .tc .vmem S16x576 .f32 := win0_2.stage (cfg0.slots t 2)
abbrev hbuf2 (t : Fin cfg0.N) : (buf2 t).IsWhole := hstage0_2 ((cfg0.slots t 2).cast nbuf0_2)
abbrev buf3 (t : Fin cfg0.N) : Memref sig .tc .vmem S16x576 .f32 := win0_3.stage (cfg0.slots t 3)
abbrev hbuf3 (t : Fin cfg0.N) : (buf3 t).IsWhole := hstage0_3 ((cfg0.slots t 3).cast nbuf0_3)

/-- The loop's result at point `t`: the sums of squares over the 256 channels of the point's two input blocks. -/
def blockSums (c : Dev nD) (t : Fin cfg0.N) : FVec F S16x576 .f32 × FVec F S16x576 .f32 :=
  loopPure (iblk m c 0 t) (iblk m c 1 t) nTrips

/-- THE ACCUMULATION: what the two output buffers hold after the body at position `n`. -/
def outs (c : Dev nD) : (n : ℕ) → n < cfg0.N → Vec F S16x576 .f32 × Vec F S16x576 .f32
  | 0, hn => (k0_pay7 (blockSums m c ⟨0, hn⟩).1 (k0_pay1 (F := F)), k0_pay8 (blockSums m c ⟨0, hn⟩).2 (k0_pay2 (F := F)))
  | n + 1, hn =>
    if (n + 1) % 8 = 0 then
      (k0_pay7 (blockSums m c ⟨n + 1, hn⟩).1 (k0_pay1 (F := F)), k0_pay8 (blockSums m c ⟨n + 1, hn⟩).2 (k0_pay2 (F := F)))
    else
      (k0_pay7 (blockSums m c ⟨n + 1, hn⟩).1 (outs c n (Nat.lt_of_succ_lt hn)).1,
       k0_pay8 (blockSums m c ⟨n + 1, hn⟩).2 (outs c n (Nat.lt_of_succ_lt hn)).2)

/-- `outs` at a point of channel block 0. -/
theorem outs_first (c : Dev nD) (t : Fin cfg0.N) (h0 : t.val % 8 = 0) :
    outs m c t.val t.isLt = (k0_pay7 (blockSums m c t).1 (k0_pay1 (F := F)), k0_pay8 (blockSums m c t).2 (k0_pay2 (F := F))) := by
  obtain ⟨n, hn⟩ := t
  cases n with
  | zero => rfl
  | succ n => exact (if_pos h0).trans rfl

/-- `outs` at a point of a later channel block: over what the point before left. -/
theorem outs_later (c : Dev nD) (t : Fin cfg0.N) (h0 : ¬t.val % 8 = 0) :
    outs m c t.val t.isLt
      = (k0_pay7 (blockSums m c t).1 (outs m c (t.val - 1) (Nat.lt_of_le_of_lt (Nat.sub_le _ _) t.isLt)).1,
         k0_pay8 (blockSums m c t).2 (outs m c (t.val - 1) (Nat.lt_of_le_of_lt (Nat.sub_le _ _) t.isLt)).2) := by
  obtain ⟨n, hn⟩ := t
  cases n with
  | zero => exact absurd (Nat.zero_mod _) h0
  | succ n => exact (if_neg h0).trans rfl

/-! ## The proof data -/

/-- The arrays as the region finds them; after the body at point `t` each input buffer at its block and the output
    buffers at `outs`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outs m c t.val t.isLt).1
    | ⟨3, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outs m c t.val t.isLt).1 := by dsimp only [dats]
theorem after3 (c : Dev nD) (t : Fin cfg0.N) : (dats m 0 c).after 3 t = (outs m c t.val t.isLt).2 := by dsimp only [dats]

/-- Each input's current buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a point of a later channel block each output's current buffer holds what the point before left: the point is
    not the first and the buffer was not written back in between (write-backs follow the points ≡ 7 mod 8). -/
theorem before2_later (c : Dev nD) (t : Fin cfg0.N) (h0 : ¬t.val % 8 = 0) (d) :
    (dats m 0 c).before 2 t d = (outs m c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]
theorem before3_later (c : Dev nD) (t : Fin cfg0.N) (h0 : ¬t.val % 8 = 0) (d) :
    (dats m 0 c).before 3 t d = (outs m c (t.val - 1) (Nat.lt_of_le_of_lt (Nat.sub_le _ _) t.isLt)).2 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t))

set_option maxHeartbeats 800000 in
/-- The body at any point: the inputs' buffers hold their blocks; t mod 8 says which run applies; at a later channel
    block the outputs' buffers hold what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 8 = 0
  · rw [outs_first m c t h0]
    iintro ⟨HΦ, Ho, ⟨%d0, H0⟩, ⟨%d1, H1⟩, ⟨%d2, H2⟩, ⟨%d3, H3⟩⟩
    iapply ((runFirst c (grid0.coords t) _ _ _ _ _ _ _ _ ((atFirst_iff t).mpr h0) (iblk m c 0 t) (iblk m c 1 t)) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outs_later m c t h0]
    simp only [before2_later m c t h0, before3_later m c t h0]
    iintro ⟨HΦ, Ho, ⟨%d0, H0⟩, ⟨%d1, H1⟩, ⟨%d2, H2⟩, ⟨%d3, H3⟩⟩
    iapply ((runLater c (grid0.coords t) _ _ _ _ _ _ _ _ (fun h => h0 ((atFirst_iff t).mp h)) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates; every array of the
    pipeline ends at what the proof data's write-backs make of it, every other buffer at what the host operations
    after the region compute from those. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3])
    (hsub := sfx_sub) (hfresh := sfx_fresh) (hkeep := sfx_keeps)
    (hmain := hmain m Variants.none) (hA := A_eq m) (hΦ := fun _ _ => rfl)

/-- THE FRAME: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.LibBlockSum.lean ====
/-
  General facts for setting a sum that is computed block by block beside the same sum computed in one pass.

  * `sum_range_blocks`: in any additive commutative monoid, the sum of `f` over the first `d · n` naturals is the sum,
    over the `n` consecutive blocks of length `d`, of each block's own sum. Only associativity and commutativity of
    the addition are used, so it holds on the extended reals, infinities included.
  * `at1`, `at2`: an array of rank one or two read at NATURAL coordinates — its entry when the coordinates are inside
    the extents, zero outside. With them a sum over positions of an array is a sum over naturals, and block offsets
    are plain arithmetic. `at1_eq` / `at2_eq`: at the coordinates of an index, they are the entry at that index.
-/
import Mathlib.Algebra.BigOperators.Intervals
import Mathlib.Algebra.BigOperators.Fin
import Idealize.ShloMosaic.Lib.ValueIdx

namespace Cert.LibBlockSum

open Finset Idealize.ShloMosaic Idealize.ShloMosaic.ValueIdx

/-- A sum over the first `d · n` naturals, regrouped into `n` consecutive blocks of `d` terms: position `d · s + k`
    is term `k` of block `s`. By induction on the number of blocks: the last block is split off the end of the range. -/
theorem sum_range_blocks {M : Type*} [AddCommMonoid M] (f : ℕ → M) (d : ℕ) :
    ∀ n : ℕ, ∑ i ∈ range (d * n), f i = ∑ s ∈ range n, ∑ k ∈ range d, f (d * s + k)
  | 0 => by simp
  | n + 1 => by
    rw [Nat.mul_succ, sum_range_add, sum_range_blocks f d n, sum_range_succ]

/-- A rank-1 array read at a natural coordinate: the entry there, or zero past the extent. -/
def at1 {M : Type*} [Zero M] {n : ℕ} (B : (⟨1, ![n]⟩ : Shape).Idx → M) (a : ℕ) : M :=
  if h : a < n then B (ix1 ⟨a, h⟩) else 0

/-- At the coordinate of an index, `at1` is the entry at that index. -/
theorem at1_eq {M : Type*} [Zero M] {n : ℕ} (B : (⟨1, ![n]⟩ : Shape).Idx → M) (i : (⟨1, ![n]⟩ : Shape).Idx) (a : ℕ)
    (ha : (i 0).val = a) : at1 B a = B i := by
  subst ha
  unfold at1
  rw [dif_pos (show (i 0).val < n from (i 0).isLt)]
  exact congrArg B (eq_ix1 i).symm

/-- A rank-2 array read at natural coordinates: the entry there, or zero outside the extents. -/
def at2 {M : Type*} [Zero M] {n0 n1 : ℕ} (A : (⟨2, ![n0, n1]⟩ : Shape).Idx → M) (a b : ℕ) : M :=
  if h : a < n0 ∧ b < n1 then A (ix2 ⟨a, h.1⟩ ⟨b, h.2⟩) else 0

/-- At the coordinates of an index, `at2` is the entry at that index. -/
theorem at2_eq {M : Type*} [Zero M] {n0 n1 : ℕ} (A : (⟨2, ![n0, n1]⟩ : Shape).Idx → M)
    (i : (⟨2, ![n0, n1]⟩ : Shape).Idx) (a b : ℕ) (ha : (i 0).val = a) (hb : (i 1).val = b) : at2 A a b = A i := by
  subst ha; subst hb
  unfold at2
  rw [dif_pos ⟨idx2_lt0 i, idx2_lt1 i⟩]
  exact congrArg A (eq_ix2 i).symm

end Cert.LibBlockSum
-- ==== Proof.KI.Sums.lean ====
/-
  The luminance kernel's arithmetic on the extended reals.

  For a block `x` of 16 rows × 256 channels × 576 pixels write  q x r p n  for the square of the entry at row r,
  channel n, pixel p (zero for n ≥ 256).  One trip of the loop adds, at (r, p), the 64 squares of its slab; the four
  trips together add  ∑ n < 256, q x r p n : a sum taken slab by slab is the sum taken at once, because addition on
  the extended reals is associative and commutative.  The store after the loop adds that to what the buffer held.
-/
import proofs.«180429_j48120813585001_2_alg».proof.Proof.KI.Loop
import proofs.«180429_j48120813585001_2_alg».proof.Proof.LibBlockSum
import Idealize.ShloMosaic.PureOps.Ideal.Laws
import Idealize.ShloMosaic.Lib.ValueIdx
import Idealize.ShloMosaic.Lib.Pipeline.Value

set_option maxRecDepth 16384

noncomputable section

namespace Cert.KernelIdeal.Sums

open Cert.KernelIdeal Cert.KernelIdeal.Gen Cert.KernelIdeal.Body
open Idealize.ShloMosaic Idealize.ShloMosaic.ValueIdx Finset Cert.LibBlockSum

/-- The square of a block's entry at row `r`, pixel `p` and natural channel `n` (zero past the 256 channels). -/
def q (x : Vec Ideal S16x256x576 .f32) (r : Fin 16) (p : Fin 576) (n : ℕ) : EReal :=
  if h : n < 256 then (x (ix3 r ⟨n, h⟩ p) : EReal) * (x (ix3 r ⟨n, h⟩ p) : EReal) else 0

/-- Slab `k` of a block: its channels 64 k … 64 k + 63. -/
abbrev slab (x : Vec Ideal S16x256x576 .f32) (k : Fin k0_t1_loop.trips) : FVec Ideal S16x64x576 .f32 :=
  View.ld (Val := Elt Ideal) x (Rect.unit (s := S16x256x576) (k0_off1 k) S16x64x576.size (k0_off1_inb k))

/-- The reduced axis put back: entry (r, p) of the channel-sum collects the entries (r, ch, p). -/
theorem lift_eq (r : Fin 16) (p : Fin 576) (ch : Fin 64) :
    reduces_S16x64x576_S16x576.lift (ix2 r p) ch = ix3 r ch p := by
  funext a; exact Fin.ext (by match a with | ⟨0, _⟩ => rfl | ⟨1, _⟩ => rfl | ⟨2, _⟩ => rfl)

/-- One trip's update at (r, p): the running sum plus the 64 squares of the slab. -/
theorem pay5_apply (acc : FVec Ideal S16x576 .f32) (v : FVec Ideal S16x64x576 .f32) (r : Fin 16) (p : Fin 576) :
    k0_pay5 (F := Ideal) acc v (ix2 r p) = acc (ix2 r p) + ∑ ch : Fin 64, v (ix3 r ch p) * v (ix3 r ch p) := by
  unfold k0_pay5
  show acc (ix2 r p) + multiReduction (F := Ideal) .add [1] S16x576 (mulf (shapeCast S16x64x576 v shapeCasts_S16x64x576_S16x64x576) (shapeCast S16x64x576 v shapeCasts_S16x64x576_S16x64x576)) 0x00000000#32 reduces_S16x64x576_S16x576 (.inl rfl) rfl (ix2 r p) = _
  rw [shapeCast_self]
  refine congrArg (acc (ix2 r p) + ·) ?_
  refine (Ideal.multiReduction_add_single _ _ reduces_S16x64x576_S16x576 _ _ (ix2 r p)).trans ?_
  refine Finset.sum_congr rfl fun ch _ => ?_
  rw [mulf_apply]
  exact congrArg (fun i => v i * v i) (lift_eq r p ch)

theorem pay6_apply (acc : FVec Ideal S16x576 .f32) (v : FVec Ideal S16x64x576 .f32) (r : Fin 16) (p : Fin 576) :
    k0_pay6 (F := Ideal) acc v (ix2 r p) = acc (ix2 r p) + ∑ ch : Fin 64, v (ix3 r ch p) * v (ix3 r ch p) := by
  unfold k0_pay6
  show acc (ix2 r p) + multiReduction (F := Ideal) .add [1] S16x576 (mulf (shapeCast S16x64x576 v shapeCasts_S16x64x576_S16x64x576) (shapeCast S16x64x576 v shapeCasts_S16x64x576_S16x64x576)) 0x00000000#32 reduces_S16x64x576_S16x576 (.inl rfl) rfl (ix2 r p) = _
  rw [shapeCast_self]
  refine congrArg (acc (ix2 r p) + ·) ?_
  refine (Ideal.multiReduction_add_single _ _ reduces_S16x64x576_S16x576 _ _ (ix2 r p)).trans ?_
  refine Finset.sum_congr rfl fun ch _ => ?_
  rw [mulf_apply]
  exact congrArg (fun i => v i * v i) (lift_eq r p ch)

/-- Slab `k` of a block, at (r, ch, p), is the block's entry at channel 64 k + ch. -/
theorem slab_apply (x : Vec Ideal S16x256x576 .f32) (k : Fin k0_t1_loop.trips) (r : Fin 16) (ch : Fin 64) (p : Fin 576) :
    slab x k (ix3 r ch p) * slab x k (ix3 r ch p) = q x r p (64 * k.val + ch.val) := by
  have hk : k.val < 4 := Nat.lt_of_lt_of_le k.isLt k0_t1_abs.2.1
  have hn : 64 * k.val + ch.val < 256 := by have := ch.isLt; omega
  unfold q
  rw [dif_pos hn]
  have e : (Rect.unit (s := S16x256x576) (k0_off1 k) S16x64x576.size (k0_off1_inb k)).toLoadRect.idx (ix3 r ch p)
      = ix3 r ⟨64 * k.val + ch.val, hn⟩ p := by
    funext a; refine Fin.ext ?_
    rw [LoadRect.idx_apply]
    show k0_off1 k a + 1 * ((ix3 r ch p : S16x64x576.Idx) a).val = _
    rw [k0_off1_eq k]
    match a with
    | ⟨0, _⟩ => show 0 + 1 * r.val = r.val; omega
    | ⟨1, _⟩ => show 64 * k.val + 1 * ch.val = 64 * k.val + ch.val; omega
    | ⟨2, _⟩ => show 0 + 1 * p.val = p.val; omega
  show (x ((Rect.unit (s := S16x256x576) (k0_off1 k) S16x64x576.size (k0_off1_inb k)).toLoadRect.idx (ix3 r ch p)) : EReal)
      * (x ((Rect.unit (s := S16x256x576) (k0_off1 k) S16x64x576.size (k0_off1_inb k)).toLoadRect.idx (ix3 r ch p)) : EReal) = _
  rw [e]

/-- The zero word is the number zero. -/
theorem pay3_apply (j : S16x576.Idx) : k0_pay3 (F := Ideal) j = 0 := Ideal.ofBits_zero_f32
theorem pay4_apply (j : S16x576.Idx) : k0_pay4 (F := Ideal) j = 0 := Ideal.ofBits_zero_f32
theorem pay1_apply (j : S16x576.Idx) : k0_pay1 (F := Ideal) j = 0 := Ideal.ofBits_zero_f32
theorem pay2_apply (j : S16x576.Idx) : k0_pay2 (F := Ideal) j = 0 := Ideal.ofBits_zero_f32

/-- Before trip `n` the running sums hold the squares of the first 64 n channels. -/
theorem loop_apply (x0 x1 : Vec Ideal S16x256x576 .f32) (r : Fin 16) (p : Fin 576) :
    ∀ n : ℕ, n ≤ k0_t1_loop.trips →
      (loopPure (F := Ideal) x0 x1 n).1 (ix2 r p) = ∑ s ∈ range n, ∑ k ∈ range 64, q x0 r p (64 * s + k)
      ∧ (loopPure (F := Ideal) x0 x1 n).2 (ix2 r p) = ∑ s ∈ range n, ∑ k ∈ range 64, q x1 r p (64 * s + k)
  | 0, _ => by
    rw [loopPure]; simp only [range_zero, sum_empty]
    exact ⟨pay3_apply _, pay4_apply _⟩
  | n + 1, hn => by
    have ih := loop_apply x0 x1 r p n (Nat.le_of_succ_le hn)
    have hlt : n < k0_t1_loop.trips := hn
    rw [loopPure, dif_pos hlt]
    unfold tripPure
    refine ⟨?_, ?_⟩
    · refine (pay5_apply _ (slab x0 ⟨n, hlt⟩) r p).trans ?_
      rw [sum_range_succ (fun s => ∑ k ∈ range 64, q x0 r p (64 * s + k)) n, ih.1]
      refine congrArg _ ?_
      rw [Finset.sum_range (fun k => q x0 r p (64 * n + k))]
      exact Finset.sum_congr rfl fun ch _ => slab_apply x0 ⟨n, hlt⟩ r ch p
    · refine (pay6_apply _ (slab x1 ⟨n, hlt⟩) r p).trans ?_
      rw [sum_range_succ (fun s => ∑ k ∈ range 64, q x1 r p (64 * s + k)) n, ih.2]
      refine congrArg _ ?_
      rw [Finset.sum_range (fun k => q x1 r p (64 * n + k))]
      exact Finset.sum_congr rfl fun ch _ => slab_apply x1 ⟨n, hlt⟩ r ch p

/-- The four trips together: the block's 256 squares at (r, p). -/
theorem blockSum_apply (x0 x1 : Vec Ideal S16x256x576 .f32) (r : Fin 16) (p : Fin 576) :
    (loopPure (F := Ideal) x0 x1 nTrips).1 (ix2 r p) = ∑ n ∈ range 256, q x0 r p n
    ∧ (loopPure (F := Ideal) x0 x1 nTrips).2 (ix2 r p) = ∑ n ∈ range 256, q x1 r p n := by
  have h4 : nTrips = 4 := by decide
  have ht : (4 : ℕ) ≤ k0_t1_loop.trips := by decide
  rw [h4, show (256 : ℕ) = 64 * 4 from rfl, sum_range_blocks, sum_range_blocks]
  exact loop_apply x0 x1 r p 4 ht

end Cert.KernelIdeal.Sums

end
-- ==== Proof.KI.Value.lean ====
/-
  What the luminance kernel's two output arrays hold after the run, on the extended reals.

  Write  Q X b p n  for the square of the entry of the flattened input X : [64, 2048, 576] at batch b, channel n,
  pixel p.  Point t of the grid works on batch rows 16·(t/8) … 16·(t/8)+15 and channels 256·(t%8) … 256·(t%8)+255,
  so its input block's entry (r, n, p) is X's entry (16·(t/8)+r, 256·(t%8)+n, p).  By induction along the points of
  one batch block, the output buffer after point t holds at (r, p) the squares of the first 256·(t%8+1) channels;
  at t ≡ 7 (mod 8), when the buffer is written back, that is all 2048 of them:  lum X (b, p) = ∑ n < 2048, Q X b p n.
  The write-backs tile the [64, 576] array, so it ends at `lum X`.
-/
import proofs.«180429_j48120813585001_2_alg».proof.Proof.KI.Frame
import proofs.«180429_j48120813585001_2_alg».proof.Proof.KI.Sums

set_option maxRecDepth 16384

noncomputable section

namespace Cert.KernelIdeal.Lum

open Cert.KernelIdeal Cert.KernelIdeal.Gen Cert.KernelIdeal.Body Cert.KernelIdeal.Sums
open Idealize.ShloMosaic Idealize.ShloMosaic.TcCoe Idealize.ShloMosaic.ValueIdx Finset Cert.LibBlockSum
open Idealize.SL Idealize.SL.Sem
open Idealize.ShloMosaic.Pipeline (Dat)

variable (m : (ℓ : Loc nD τ sig) → Buf (Elt Ideal) ℓ) (ρ : Dev nD → PrngReg)

/-- The flattened input read at natural batch and channel coordinates (zero outside the extents). -/
def R (X : FVec Ideal S64x2048x576 .f32) (b n : ℕ) (p : Fin 576) : EReal :=
  if h : b < 64 ∧ n < 2048 then X (ix3 ⟨b, h.1⟩ ⟨n, h.2⟩ p) else 0

/-- Its square. -/
def Q (X : FVec Ideal S64x2048x576 .f32) (b : ℕ) (p : Fin 576) (n : ℕ) : EReal := R X b n p * R X b n p

/-- THE LUMINANCE MAP: at (b, p) the sum over the 2048 channels of the squares. -/
def lum (X : FVec Ideal S64x2048x576 .f32) : FVec Ideal S64x576 .f32 :=
  fun j => ∑ n ∈ range 2048, Q X (j 0).val ⟨(j 1).val, idx2_lt1 j⟩ n

theorem lum_apply (X : FVec Ideal S64x2048x576 .f32) (b : Fin 64) (p : Fin 576) :
    lum X (ix2 b p) = ∑ n ∈ range 2048, Q X b.val p n := rfl

/-- A block that is the part of `X` at batch offset `b0` and channel offset `c0` has the squares of that part. -/
theorem q_of_part (x : Vec Ideal S16x256x576 .f32) (X : FVec Ideal S64x2048x576 .f32) (b0 c0 : ℕ)
    (hx : ∀ (r : Fin 16) (n : ℕ) (hn : n < 256) (p : Fin 576), (x (ix3 r ⟨n, hn⟩ p) : EReal) = R X (b0 + r.val) (c0 + n) p)
    (r : Fin 16) (p : Fin 576) :
    ∑ n ∈ range 256, q x r p n = ∑ n ∈ range 256, Q X (b0 + r.val) p (c0 + n) := by
  refine Finset.sum_congr rfl fun n hn => ?_
  have hn' : n < 256 := mem_range.mp hn
  unfold q Q
  rw [dif_pos hn', hx r n hn' p]

/-- The grid's index maps in closed form: batch block t / 8, channel block t % 8. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

/-- Input window 0's block at point `t` is the part of its array at batch offset 16·(t/8), channel offset 256·(t%8). -/
theorem blk0_apply (c : Dev nD) (t : Fin cfg0.N) (r : Fin 16) (n : ℕ) (hn : n < 256) (p : Fin 576) :
    ((iblk m c 0 t : Vec Ideal S16x256x576 .f32) (ix3 r ⟨n, hn⟩ p) : EReal)
      = R (V m c main_v0) (16 * (t.val / 8) + r.val) (256 * (t.val % 8) + n) p := by
  have hN : t.val < 32 := lt_of_lt_of_eq t.isLt (show cfg0.N = 32 from N_0)
  obtain ⟨e0, e1, e2, -⟩ := idx_facts t
  have hb : 16 * (t.val / 8) + r.val < 64 ∧ 256 * (t.val % 8) + n < 2048 := by have := r.isLt; omega
  unfold R
  rw [dif_pos hb]
  show V m c main_v0 (((cfg0.win 0).blk t).view.emb (ix3 r ⟨n, hn⟩ p)) = _
  refine congrArg (V m c main_v0) ?_
  funext a; apply Fin.ext
  match a with
  | ⟨0, _⟩ => show win0_0.index t (0 : Fin 3) * 16 + 1 * r.val = 16 * (t.val / 8) + r.val; omega
  | ⟨1, _⟩ => show win0_0.index t (1 : Fin 3) * 256 + 1 * n = 256 * (t.val % 8) + n; omega
  | ⟨2, _⟩ => show win0_0.index t (2 : Fin 3) * 576 + 1 * p.val = p.val; omega

theorem blk1_apply (c : Dev nD) (t : Fin cfg0.N) (r : Fin 16) (n : ℕ) (hn : n < 256) (p : Fin 576) :
    ((iblk m c 1 t : Vec Ideal S16x256x576 .f32) (ix3 r ⟨n, hn⟩ p) : EReal)
      = R (V m c main_v1) (16 * (t.val / 8) + r.val) (256 * (t.val % 8) + n) p := by
  have hN : t.val < 32 := lt_of_lt_of_eq t.isLt (show cfg0.N = 32 from N_0)
  obtain ⟨-, -, -, e0, e1, e2, -⟩ := idx_facts t
  have hb : 16 * (t.val / 8) + r.val < 64 ∧ 256 * (t.val % 8) + n < 2048 := by have := r.isLt; omega
  unfold R
  rw [dif_pos hb]
  show V m c main_v1 (((cfg0.win 1).blk t).view.emb (ix3 r ⟨n, hn⟩ p)) = _
  refine congrArg (V m c main_v1) ?_
  funext a; apply Fin.ext
  match a with
  | ⟨0, _⟩ => show win0_1.index t (0 : Fin 3) * 16 + 1 * r.val = 16 * (t.val / 8) + r.val; omega
  | ⟨1, _⟩ => show win0_1.index t (1 : Fin 3) * 256 + 1 * n = 256 * (t.val % 8) + n; omega
  | ⟨2, _⟩ => show win0_1.index t (2 : Fin 3) * 576 + 1 * p.val = p.val; omega

/-- The loop's result at point `t`: at (r, p) the squares of the point's 256 channels. -/
theorem blockSums_apply (c : Dev nD) (t : Fin cfg0.N) (r : Fin 16) (p : Fin 576) :
    (blockSums m c t).1 (ix2 r p) = ∑ n ∈ range 256, Q (V m c main_v0) (16 * (t.val / 8) + r.val) p (256 * (t.val % 8) + n)
    ∧ (blockSums m c t).2 (ix2 r p) = ∑ n ∈ range 256, Q (V m c main_v1) (16 * (t.val / 8) + r.val) p (256 * (t.val % 8) + n) := by
  unfold blockSums
  have h := blockSum_apply (iblk m c 0 t) (iblk m c 1 t) r p
  exact ⟨h.1.trans (q_of_part _ _ _ _ (fun r n hn p => blk0_apply m c t r n hn p) r p),
    h.2.trans (q_of_part _ _ _ _ (fun r n hn p => blk1_apply m c t r n hn p) r p)⟩

/-- The store after the loop: what the buffer held plus the loop's result. -/
theorem pay7_apply (s : FVec Ideal S16x576 .f32) (y : Vec Ideal S16x576 .f32) (j : S16x576.Idx) :
    (k0_pay7 (F := Ideal) s y j : EReal) = (y j : EReal) + s j := by
  unfold k0_pay7
  show addf (shapeCast S16x576 y shapeCasts_S16x576_S16x576) s j = _
  rw [shapeCast_self]; rfl
theorem pay8_apply (s : FVec Ideal S16x576 .f32) (y : Vec Ideal S16x576 .f32) (j : S16x576.Idx) :
    (k0_pay8 (F := Ideal) s y j : EReal) = (y j : EReal) + s j := by
  unfold k0_pay8
  show addf (shapeCast S16x576 y shapeCasts_S16x576_S16x576) s j = _
  rw [shapeCast_self]; rfl

/-- A store of "zeros + the sums" holds the sums. -/
theorem pay7_zero (s : FVec Ideal S16x576 .f32) (j : S16x576.Idx) : (k0_pay7 (F := Ideal) s (k0_pay1 (F := Ideal)) j : EReal) = s j :=
  (pay7_apply s _ j).trans (by rw [pay1_apply, zero_add])
theorem pay8_zero (s : FVec Ideal S16x576 .f32) (j : S16x576.Idx) : (k0_pay8 (F := Ideal) s (k0_pay2 (F := Ideal)) j : EReal) = s j :=
  (pay8_apply s _ j).trans (by rw [pay2_apply, zero_add])

/-- The squares of the first 256·(k + 1) channels, block by block. -/
abbrev upTo (X : FVec Ideal S64x2048x576 .f32) (b : ℕ) (p : Fin 576) (k : ℕ) : EReal :=
  ∑ j ∈ range (k + 1), ∑ i ∈ range 256, Q X b p (256 * j + i)

/-- At a point of channel block 0 the buffers hold the first block's squares. -/
theorem outs_at_first (c : Dev nD) (r : Fin 16) (p : Fin 576) (t : Fin cfg0.N) (h0 : t.val % 8 = 0) :
    ((outs m c t.val t.isLt).1 (ix2 r p) : EReal) = upTo (V m c main_v0) (16 * (t.val / 8) + r.val) p (t.val % 8)
    ∧ ((outs m c t.val t.isLt).2 (ix2 r p) : EReal) = upTo (V m c main_v1) (16 * (t.val / 8) + r.val) p (t.val % 8) := by
  have hb := blockSums_apply m c t r p
  rw [outs_first m c t h0]
  refine ⟨(pay7_zero _ _).trans (hb.1.trans ?_), (pay8_zero _ _).trans (hb.2.trans ?_)⟩
  · rw [h0]; simp only [upTo, zero_add, sum_range_one, Nat.mul_zero]
  · rw [h0]; simp only [upTo, zero_add, sum_range_one, Nat.mul_zero]

/-- At a point of a later channel block they gain that block's squares. -/
theorem outs_at_later (c : Dev nD) (r : Fin 16) (p : Fin 576) (t : Fin cfg0.N) (h0 : ¬t.val % 8 = 0)
    (ih : ((outs m c (t.val - 1) (Nat.lt_of_le_of_lt (Nat.sub_le _ _) t.isLt)).1 (ix2 r p) : EReal)
            = upTo (V m c main_v0) (16 * ((t.val - 1) / 8) + r.val) p ((t.val - 1) % 8)
        ∧ ((outs m c (t.val - 1) (Nat.lt_of_le_of_lt (Nat.sub_le _ _) t.isLt)).2 (ix2 r p) : EReal)
            = upTo (V m c main_v1) (16 * ((t.val - 1) / 8) + r.val) p ((t.val - 1) % 8)) :
    ((outs m c t.val t.isLt).1 (ix2 r p) : EReal) = upTo (V m c main_v0) (16 * (t.val / 8) + r.val) p (t.val % 8)
    ∧ ((outs m c t.val t.isLt).2 (ix2 r p) : EReal) = upTo (V m c main_v1) (16 * (t.val / 8) + r.val) p (t.val % 8) := by
  have hb := blockSums_apply m c t r p
  have e1 : (t.val - 1) / 8 = t.val / 8 := by omega
  have e2 : t.val % 8 = (t.val - 1) % 8 + 1 := by omega
  rw [outs_later m c t h0]
  refine ⟨(pay7_apply _ _ _).trans ?_, (pay8_apply _ _ _).trans ?_⟩
  · rw [ih.1, hb.1, e1]
    show _ = ∑ j ∈ range (t.val % 8 + 1), ∑ i ∈ range 256, Q (V m c main_v0) (16 * (t.val / 8) + r.val) p (256 * j + i)
    rw [sum_range_succ (fun j => ∑ i ∈ range 256, Q (V m c main_v0) (16 * (t.val / 8) + r.val) p (256 * j + i)) (t.val % 8)]
    rw [e2]
  · rw [ih.2, hb.2, e1]
    show _ = ∑ j ∈ range (t.val % 8 + 1), ∑ i ∈ range 256, Q (V m c main_v1) (16 * (t.val / 8) + r.val) p (256 * j + i)
    rw [sum_range_succ (fun j => ∑ i ∈ range 256, Q (V m c main_v1) (16 * (t.val / 8) + r.val) p (256 * j + i)) (t.val % 8)]
    rw [e2]

/-- THE INVARIANT along the points: after point `n` the output buffers hold, at (r, p), the squares of the first
    256·(n % 8 + 1) channels of batch row 16·(n / 8) + r. -/
theorem outs_apply (c : Dev nD) (r : Fin 16) (p : Fin 576) (n : ℕ) :
    ∀ hn : n < cfg0.N,
      ((outs m c n hn).1 (ix2 r p) : EReal) = upTo (V m c main_v0) (16 * (n / 8) + r.val) p (n % 8)
      ∧ ((outs m c n hn).2 (ix2 r p) : EReal) = upTo (V m c main_v1) (16 * (n / 8) + r.val) p (n % 8) := by
  induction n with
  | zero => intro hn; exact outs_at_first m c r p ⟨0, hn⟩ (Nat.zero_mod 8)
  | succ n ih =>
    intro hn
    by_cases h0 : (n + 1) % 8 = 0
    · exact outs_at_first m c r p ⟨n + 1, hn⟩ h0
    · exact outs_at_later m c r p ⟨n + 1, hn⟩ h0 (ih (Nat.lt_of_succ_lt hn))

end Cert.KernelIdeal.Lum

end
-- ==== Proof.KI.Final.lean ====
/-
  The two output arrays after the run: the write-backs of the points ≡ 7 (mod 8) tile each [64, 576] array, and
  each writes the block of the luminance map of the window's input.
-/
import proofs.«180429_j48120813585001_2_alg».proof.Proof.KI.Value

set_option maxRecDepth 16384

noncomputable section

namespace Cert.KernelIdeal.Lum

open Cert.KernelIdeal Cert.KernelIdeal.Gen Cert.KernelIdeal.Body Cert.KernelIdeal.Sums
open Idealize.ShloMosaic Idealize.ShloMosaic.TcCoe Idealize.ShloMosaic.ValueIdx Finset Cert.LibBlockSum
open Idealize.SL Idealize.SL.Sem
open Idealize.ShloMosaic.Pipeline (Dat)

variable (m : (ℓ : Loc nD τ sig) → Buf (Elt Ideal) ℓ) (ρ : Dev nD → PrngReg)

/-- What the write-back at a point ≡ 7 (mod 8) writes for output window 2: the block of `lum` of the window's input. -/
theorem flushed2_eq (c : Dev nD) (t : Fin cfg0.N) (h7 : t.val % 8 = 7) :
    (dats m 0 c).flushed 2 t = ((cfg0.win 2).blk t).view.read (Elt Ideal) (lum (V m c main_v0)) := by
  have hN : t.val < 32 := lt_of_lt_of_eq t.isLt (show cfg0.N = 32 from N_0)
  obtain ⟨-, -, -, -, -, -, e0, e1, -⟩ := idx_facts t
  show (cfg0.win 2).cut (grid0.coords t) ((dats m 0 c).after 2 t) = _
  rw [after2]
  funext y
  obtain ⟨r, p, rfl⟩ : ∃ (r : Fin 16) (p : Fin 576), y = ix2 r p := ⟨y 0, y 1, eq_ix2 y⟩
  show ((outs m c t.val t.isLt).1 (ix2 r p) : EReal) = lum (V m c main_v0) (((cfg0.win 2).blk t).view.emb (ix2 r p))
  have hb : 16 * (t.val / 8) + r.val < 64 := by have := r.isLt; omega
  have e : ((cfg0.win 2).blk t).view.emb (ix2 r p) = ix2 ⟨16 * (t.val / 8) + r.val, hb⟩ p := by
    funext a; apply Fin.ext
    match a with
    | ⟨0, _⟩ => show win0_2.index t (0 : Fin 2) * 16 + 1 * r.val = 16 * (t.val / 8) + r.val; omega
    | ⟨1, _⟩ => show win0_2.index t (1 : Fin 2) * 576 + 1 * p.val = p.val; omega
  rw [e, lum_apply, (outs_apply m c r p t.val t.isLt).1, h7]
  show ∑ j ∈ range (7 + 1), ∑ i ∈ range 256, Q _ _ p (256 * j + i) = _
  exact (sum_range_blocks (fun n => Q (V m c main_v0) (16 * (t.val / 8) + r.val) p n) 256 8).symm

/-- An index of the array is in point `t`'s block of window 2 iff each coordinate is in the block's range. -/
theorem mem_blk2 (t : Fin cfg0.N) (i : S64x576.Idx) :
    i ∈ ((cfg0.win 2).blk t).view.set ↔ ∀ a : Fin 2, win0_2.index t a * S16x576.size a ≤ (i a).val ∧ (i a).val < win0_2.index t a * S16x576.size a + S16x576.size a := by
  show i ∈ ((View.whole main_v2_0).slice (win0_2.rect t)).set ↔ _
  rw [View.set_slice_whole, Rect.mem_set_unit]
  exact Iff.rfl

/-- Every entry of the array lies in the block written back after the last channel block of its batch block. -/
theorem cover2 (i : S64x576.Idx) : ∃ t : Fin cfg0.N, (cfg0.win 2).flush t = true ∧ i ∈ ((cfg0.win 2).blk t).view.set := by
  have hi0 : (i 0).val < 64 := (i 0).isLt
  have hi1 : (i 1).val < 576 := (i 1).isLt
  have hlt : 8 * ((i 0).val / 16) + 7 < cfg0.N := lt_of_lt_of_eq (by omega : 8 * ((i 0).val / 16) + 7 < 32) (show 32 = cfg0.N from N_0.symm)
  have h78 : (8 * ((i 0).val / 16) + 7) % 8 = 7 := by omega
  refine ⟨⟨8 * ((i 0).val / 16) + 7, hlt⟩, (flush0_2 _).mpr h78, ?_⟩
  obtain ⟨-, -, -, -, -, -, e0, e1, -⟩ := idx_facts ⟨8 * ((i 0).val / 16) + 7, hlt⟩
  have e0' : win0_2.index ⟨8 * ((i 0).val / 16) + 7, hlt⟩ (0 : Fin 2) = (8 * ((i 0).val / 16) + 7) / 8 := e0
  rw [mem_blk2]
  intro a
  match a with
  | ⟨0, _⟩ => show win0_2.index ⟨8 * ((i 0).val / 16) + 7, hlt⟩ (0 : Fin 2) * 16 ≤ (i 0).val ∧ (i 0).val < win0_2.index ⟨8 * ((i 0).val / 16) + 7, hlt⟩ (0 : Fin 2) * 16 + 16; omega
  | ⟨1, _⟩ => show win0_2.index ⟨8 * ((i 0).val / 16) + 7, hlt⟩ (1 : Fin 2) * 576 ≤ (i 1).val ∧ (i 1).val < win0_2.index ⟨8 * ((i 0).val / 16) + 7, hlt⟩ (1 : Fin 2) * 576 + 576; omega

/-- THE ARRAY of output window 2 after the run. -/
theorem final2 (c : Dev nD) : (dats m 0 c).arrAt 2 cfg0.N = lum (V m c main_v0) :=
  (dats m 0 c).arrAt_eq_of_cover 2 (lum (V m c main_v0)) (fun t hf => flushed2_eq m c t ((flush0_2 t).mp hf)) cover2

/-- What the write-back at a point ≡ 7 (mod 8) writes for output window 3: the block of `lum` of the window's input. -/
theorem flushed3_eq (c : Dev nD) (t : Fin cfg0.N) (h7 : t.val % 8 = 7) :
    (dats m 0 c).flushed 3 t = ((cfg0.win 3).blk t).view.read (Elt Ideal) (lum (V m c main_v1)) := by
  have hN : t.val < 32 := lt_of_lt_of_eq t.isLt (show cfg0.N = 32 from N_0)
  obtain ⟨-, -, -, -, -, -, -, -, e0, e1⟩ := idx_facts t
  show (cfg0.win 3).cut (grid0.coords t) ((dats m 0 c).after 3 t) = _
  rw [after3]
  funext y
  obtain ⟨r, p, rfl⟩ : ∃ (r : Fin 16) (p : Fin 576), y = ix2 r p := ⟨y 0, y 1, eq_ix2 y⟩
  show ((outs m c t.val t.isLt).2 (ix2 r p) : EReal) = lum (V m c main_v1) (((cfg0.win 3).blk t).view.emb (ix2 r p))
  have hb : 16 * (t.val / 8) + r.val < 64 := by have := r.isLt; omega
  have e : ((cfg0.win 3).blk t).view.emb (ix2 r p) = ix2 ⟨16 * (t.val / 8) + r.val, hb⟩ p := by
    funext a; apply Fin.ext
    match a with
    | ⟨0, _⟩ => show win0_3.index t (0 : Fin 2) * 16 + 1 * r.val = 16 * (t.val / 8) + r.val; omega
    | ⟨1, _⟩ => show win0_3.index t (1 : Fin 2) * 576 + 1 * p.val = p.val; omega
  rw [e, lum_apply, (outs_apply m c r p t.val t.isLt).2, h7]
  show ∑ j ∈ range (7 + 1), ∑ i ∈ range 256, Q _ _ p (256 * j + i) = _
  exact (sum_range_blocks (fun n => Q (V m c main_v1) (16 * (t.val / 8) + r.val) p n) 256 8).symm

/-- An index of the array is in point `t`'s block of window 3 iff each coordinate is in the block's range. -/
theorem mem_blk3 (t : Fin cfg0.N) (i : S64x576.Idx) :
    i ∈ ((cfg0.win 3).blk t).view.set ↔ ∀ a : Fin 2, win0_3.index t a * S16x576.size a ≤ (i a).val ∧ (i a).val < win0_3.index t a * S16x576.size a + S16x576.size a := by
  show i ∈ ((View.whole main_v2_1).slice (win0_3.rect t)).set ↔ _
  rw [View.set_slice_whole, Rect.mem_set_unit]
  exact Iff.rfl

/-- Every entry of the array lies in the block written back after the last channel block of its batch block. -/
theorem cover3 (i : S64x576.Idx) : ∃ t : Fin cfg0.N, (cfg0.win 3).flush t = true ∧ i ∈ ((cfg0.win 3).blk t).view.set := by
  have hi0 : (i 0).val < 64 := (i 0).isLt
  have hi1 : (i 1).val < 576 := (i 1).isLt
  have hlt : 8 * ((i 0).val / 16) + 7 < cfg0.N := lt_of_lt_of_eq (by omega : 8 * ((i 0).val / 16) + 7 < 32) (show 32 = cfg0.N from N_0.symm)
  have h78 : (8 * ((i 0).val / 16) + 7) % 8 = 7 := by omega
  refine ⟨⟨8 * ((i 0).val / 16) + 7, hlt⟩, (flush0_3 _).mpr h78, ?_⟩
  obtain ⟨-, -, -, -, -, -, -, -, e0, e1⟩ := idx_facts ⟨8 * ((i 0).val / 16) + 7, hlt⟩
  have e0' : win0_3.index ⟨8 * ((i 0).val / 16) + 7, hlt⟩ (0 : Fin 2) = (8 * ((i 0).val / 16) + 7) / 8 := e0
  rw [mem_blk3]
  intro a
  match a with
  | ⟨0, _⟩ => show win0_3.index ⟨8 * ((i 0).val / 16) + 7, hlt⟩ (0 : Fin 2) * 16 ≤ (i 0).val ∧ (i 0).val < win0_3.index ⟨8 * ((i 0).val / 16) + 7, hlt⟩ (0 : Fin 2) * 16 + 16; omega
  | ⟨1, _⟩ => show win0_3.index ⟨8 * ((i 0).val / 16) + 7, hlt⟩ (1 : Fin 2) * 576 ≤ (i 1).val ∧ (i 1).val < win0_3.index ⟨8 * ((i 0).val / 16) + 7, hlt⟩ (1 : Fin 2) * 576 + 576; omega

/-- THE ARRAY of output window 3 after the run. -/
theorem final3 (c : Dev nD) : (dats m 0 c).arrAt 3 cfg0.N = lum (V m c main_v1) :=
  (dats m 0 c).arrAt_eq_of_cover 3 (lum (V m c main_v1)) (fun t hf => flushed3_eq m c t ((flush0_3 t).mp hf)) cover3

end Cert.KernelIdeal.Lum

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«180429_j48120813585001_2_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.Tail.lean ====
/-
  The tail shared by the two programs: from the two per-sample luminance maps to the masked mean of the pairwise errors.

  Write `lv`, `li` for the two 64 × 576 arrays (row `b` is sample `b`'s map over its 576 positions) and `lab` for the 64 labels.
  Each program then computes
    ms(l)[b]      = (∑ p, l[b, p]²) / 576                                        (the mean square of a row),
    err[b, b']    = ms(lv)[b] + ms(li)[b'] − 2 · (cross[b, b'] / 576),
    mask[b, b']   = (lab[b] = lab[b']) ∧ ¬ (b = b'),
    n             = ∑ mask,        total = ∑ (mask ? err : 0),
    result        = (n > 0) ? total / float (max n 1) : 0,
  where `cross[b, b']` is the inner product `∑ k, lv[b, k] · li[b', k]` of row `b` of `lv` with row `b'` of `li`. The only place where
  the two programs spell this differently is `cross`: one forms the plain matrix product of `lv` with the transpose of `li`, the
  other contracts the last axis of both. `rest` below is the tail with `cross` left as a parameter; `crossK` is the first spelling,
  and `crossK_apply` reads it entry by entry as the inner product of rows.
-/
import proofs.«180429_j48120813585001_2_alg».proof.Proof.Gen.KernelIdeal
import proofs.«180429_j48120813585001_2_alg».proof.Proof.LibDotColsHost
import Idealize.ShloMosaic.Lib.ValueLayout
import Idealize.ShloMosaic.Lib.ValueIdx
import Idealize.ShloMosaic.PureOps.Ideal.Laws

noncomputable section

open scoped BigOperators

namespace Cert.LumTail

open Idealize.ShloMosaic Idealize.ShloMosaic.ValueIdx Cert.KernelIdeal
open Cert.KernelIdeal.Facts₀

variable [Cert.KernelIdeal.Facts]

/-- The mean square of each row: `(∑ p, l[b, p]²) / 576`. -/
def rowMeanSq (l : (⟨S64x576, .f32⟩ : BufTy).Contents (Elt Ideal)) : (⟨S64, .f32⟩ : BufTy).Contents (Elt Ideal) :=
  Host.divf (F := Ideal)
    (Host.reduceAdd (F := Ideal) (mulf (F := Ideal) l l) (constant (F := Ideal) S_ .f32 0x00000000#32) reducesTo_S64x576_S64_d1 h_S_)
    (broadcastInDim S64 ![] bcast_S_S64 (constant (F := Ideal) S_ .f32 0x44100000#32))

/-- The pairwise error `ms(lv)[b] + ms(li)[b'] − 2 · (cross[b, b'] / 576)`. -/
def pairErr (lv li : (⟨S64x576, .f32⟩ : BufTy).Contents (Elt Ideal)) (cross : (⟨S64x64, .f32⟩ : BufTy).Contents (Elt Ideal)) :
    (⟨S64x64, .f32⟩ : BufTy).Contents (Elt Ideal) :=
  subf (F := Ideal)
    (addf (F := Ideal)
      (broadcastInDim S64x64 ![0, 1] bcast_S64x1_S64x64_0_1 (broadcastInDim S64x1 ![0] bcast_S64_S64x1_0 (rowMeanSq lv)))
      (broadcastInDim S64x64 ![0, 1] bcast_S1x64_S64x64_0_1 (broadcastInDim S1x64 ![1] bcast_S64_S1x64_1 (rowMeanSq li))))
    (mulf (F := Ideal) (broadcastInDim S64x64 ![] bcast_S_S64x64 (constant (F := Ideal) S_ .f32 0x40000000#32))
      (Host.divf (F := Ideal) cross (broadcastInDim S64x64 ![] bcast_S_S64x64 (constant (F := Ideal) S_ .f32 0x44100000#32))))

/-- The pairs that count: equal labels, off the diagonal. -/
def pairMask (lab : (⟨S64, .i32⟩ : BufTy).Contents (Elt Ideal)) : (⟨S64x64, .i1⟩ : BufTy).Contents (Elt Ideal) :=
  andi
    (cmpi .eq
      (broadcastInDim S64x64 ![0, 1] bcast_S64x1_S64x64_0_1 (broadcastInDim S64x1 ![0] bcast_S64_S64x1_0 lab))
      (broadcastInDim S64x64 ![0, 1] bcast_S1x64_S64x64_0_1 (broadcastInDim S1x64 ![1] bcast_S64_S1x64_1 lab)))
    (noti (cmpi .eq (addi (iotaInDim S64x64 32 0) (broadcastInDim S64x64 ![] bcast_S_S64x64 (constantI S_ 32 0#32))) (iotaInDim S64x64 32 1)))

/-- How many pairs count. -/
def pairCount (lab : (⟨S64, .i32⟩ : BufTy).Contents (Elt Ideal)) : (⟨S_, .i32⟩ : BufTy).Contents (Elt Ideal) :=
  Host.reduce IntOp.addi (extui 32 (pairMask lab) natLt_1_32) (constantI S_ 32 0#32) reducesTo_S64x64_S_d0_1 h_S_

/-- The tail, with the matrix of inner products `cross` as a parameter: the masked errors summed, divided by the number of
    counted pairs (at least one), and zero when no pair counts. -/
def rest (lv li : (⟨S64x576, .f32⟩ : BufTy).Contents (Elt Ideal)) (cross : (⟨S64x64, .f32⟩ : BufTy).Contents (Elt Ideal))
    (lab : (⟨S64, .i32⟩ : BufTy).Contents (Elt Ideal)) : (⟨S_, .f32⟩ : BufTy).Contents (Elt Ideal) :=
  select (cmpi .sgt (pairCount lab) (constantI S_ 32 0#32))
    (Host.divf (F := Ideal)
      (Host.reduceAdd (F := Ideal)
        (select (pairMask lab) (pairErr lv li cross)
          (broadcastInDim S64x64 ![] bcast_S_S64x64 (id (constant (F := Ideal) S_ .f32 0x00000000#32))))
        (constant (F := Ideal) S_ .f32 0x00000000#32) reducesTo_S64x64_S_d0_1 h_S_)
      (sitofp (F := Ideal) .f32 (maxsi (pairCount lab) (constantI S_ 32 1#32))))
    (constant (F := Ideal) S_ .f32 0x00000000#32)

/-- The inner products spelt as a plain matrix product: `lv` (64 × 576) times the transpose of `li` (576 × 64). -/
def crossK (lv li : (⟨S64x576, .f32⟩ : BufTy).Contents (Elt Ideal)) : (⟨S64x64, .f32⟩ : BufTy).Contents (Elt Ideal) :=
  Host.dotGeneral (F := Ideal) (φ₁ := .f32) (φ₂ := .f32) dot_S64x576_S576x64_S64x64_1_0_0_1_n_n (some .fp32) lv
    (transpose S576x64 [1, 0] li transposes_S64x576_S576x64_1_0)

/-- Entry `(p, q)` of that product is the inner product of row `p` of `lv` with row `q` of `li`: the plain product reads the
    transposed right operand at `(k, q)`, which is `li` at `(q, k)`. -/
theorem crossK_apply (lv li : (⟨S64x576, .f32⟩ : BufTy).Contents (Elt Ideal)) (p q : Fin 64) :
    crossK lv li (ix2 p q) = ∑ k : Fin 576, lv (ix2 p k) * li (ix2 q k) := by
  unfold crossK
  show FloatOps.dotGeneral _ _ _ _ _ (ix2 p q) = _
  refine (Cert.Lib.DotColsHost.dotGeneral_cols_apply (M := 64) (K := 576) (N := 64)
    dot_S64x576_S576x64_S64x64_1_0_0_1_n_n rfl _ _ lv _ p q).trans ?_
  refine Finset.sum_congr rfl fun k _ => ?_
  rw [transpose_ix2_apply]

end Cert.LumTail

end
-- ==== Proof.KI.TailK.lean ====
/-
  The kernel's host tail and the arrays its region is handed.

  After the region the kernel's program runs the shared tail, operation by operation, on the two arrays the region wrote (the
  luminance maps) and on the label array, which no operation writes. So whatever the two arrays hold at the end of the region,
  the program's result is the shared tail of them, with the inner products spelt as the plain product with the transpose
  (`tail_val`, `kernel_tail`). Before the region the program only re-lays each 64 × 2048 × 24 × 24 argument array out as
  64 × 2048 × 576: position `p` of the last axis is grid position `(p / 24, p % 24)` (`V_v0_apply`, `V_v1_apply`).
-/
import proofs.«180429_j48120813585001_2_alg».proof.Proof.Gen.KernelIdeal.Frame
import proofs.«180429_j48120813585001_2_alg».proof.Proof.Tail
import Idealize.ShloMosaic.Lib.StableHlo.Run
import Idealize.ShloMosaic.Lib.Pipeline.Value

set_option maxRecDepth 16384

noncomputable section

namespace Cert.KernelIdeal.TailK

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)

/-- Running one stretch of operations after another is running their concatenation. -/
theorem after_append : ∀ (l1 l2 : List (HloOp τ sig (Elt Ideal))) (W : Valuation τ sig (Elt Ideal)),
    StableHlo.after (l1 ++ l2) W = StableHlo.after l2 (StableHlo.after l1 W)
  | [], _, _ => rfl
  | op :: l1, l2, W => after_append l1 l2 (op.result W)

/-! The first stretch computes, from the two luminance maps and the labels, the pair mask, the pair count and the pairwise errors. -/

theorem s1_mask (W : Valuation τ sig (Elt Ideal)) :
    StableHlo.after hostOps1 W (Proc.devRef .tc main_v34) = Cert.LumTail.pairMask (W (Proc.devRef .tc main_arg2)) := by
  simp only [hostOps1]
  after_results_simp
  rfl

theorem s1_count (W : Valuation τ sig (Elt Ideal)) :
    StableHlo.after hostOps1 W (Proc.devRef .tc main_v36) = Cert.LumTail.pairCount (W (Proc.devRef .tc main_arg2)) := by
  simp only [hostOps1]
  after_results_simp
  rfl

theorem s1_err (W : Valuation τ sig (Elt Ideal)) :
    StableHlo.after hostOps1 W (Proc.devRef .tc main_v22)
      = Cert.LumTail.pairErr (W (Proc.devRef .tc main_v2_0)) (W (Proc.devRef .tc main_v2_1))
          (Cert.LumTail.crossK (W (Proc.devRef .tc main_v2_0)) (W (Proc.devRef .tc main_v2_1))) := by
  simp only [hostOps1]
  after_results_simp
  rfl

theorem s1_zero (W : Valuation τ sig (Elt Ideal)) :
    StableHlo.after hostOps1 W (Proc.devRef .tc main_cst_6) = constant (F := Ideal) S_ .f32 0x00000000#32 := by
  simp only [hostOps1]
  after_results_simp

/-! The second stretch keeps the masked errors (zero elsewhere) and leaves the pair count alone. -/

theorem s2_masked (W : Valuation τ sig (Elt Ideal)) :
    StableHlo.after hostOps1_1 W (Proc.devRef .tc main_v37)
      = select (W (Proc.devRef .tc main_v34)) (W (Proc.devRef .tc main_v22))
          (broadcastInDim S64x64 ![] bcast_S_S64x64 (id (W (Proc.devRef .tc main_cst_6)))) := by
  simp only [hostOps1_1]
  after_results_simp
  rfl

theorem s2_count (W : Valuation τ sig (Elt Ideal)) :
    StableHlo.after hostOps1_1 W (Proc.devRef .tc main_v36) = W (Proc.devRef .tc main_v36) := by
  simp only [hostOps1_1]
  after_results_simp

/-! The third stretch sums the masked errors and divides by the pair count (at least one); it also tests the count. -/

theorem s3_pos (W : Valuation τ sig (Elt Ideal)) :
    StableHlo.after hostOps1_2 W (Proc.devRef .tc main_v39) = cmpi .sgt (W (Proc.devRef .tc main_v36)) (constantI S_ 32 0#32) := by
  simp only [hostOps1_2]
  after_results_simp

theorem s3_mean (W : Valuation τ sig (Elt Ideal)) :
    StableHlo.after hostOps1_2 W (Proc.devRef .tc main_v42)
      = Host.divf (F := Ideal)
          (Host.reduceAdd (F := Ideal) (W (Proc.devRef .tc main_v37)) (constant (F := Ideal) S_ .f32 0x00000000#32) reducesTo_S64x64_S_d0_1 h_S_)
          (sitofp (F := Ideal) .f32 (maxsi (W (Proc.devRef .tc main_v36)) (constantI S_ 32 1#32))) := by
  simp only [hostOps1_2]
  after_results_simp

theorem s3_zero (W : Valuation τ sig (Elt Ideal)) :
    StableHlo.after hostOps1_2 W (Proc.devRef .tc main_cst_10) = constant (F := Ideal) S_ .f32 0x00000000#32 := by
  simp only [hostOps1_2]
  after_results_simp

/-! The last operation selects the mean when some pair counts and zero otherwise. -/

theorem s4_result (W : Valuation τ sig (Elt Ideal)) :
    StableHlo.after hostOps1_3 W (Proc.devRef .tc main_v43)
      = select (W (Proc.devRef .tc main_v39)) (W (Proc.devRef .tc main_v42)) (W (Proc.devRef .tc main_cst_10)) := by
  simp only [hostOps1_3]
  after_results_simp
  rfl

/-- The operations after the region, run from ANY buffer contents `W`, leave in the result buffer the shared tail of what `W`
    holds in the region's two result arrays and in the label array. -/
theorem tail_val (W : Valuation τ sig (Elt Ideal)) :
    StableHlo.after (List.flatten [hostOps1, hostOps1_1, hostOps1_2, hostOps1_3]) W (Proc.devRef .tc main_v43)
      = Cert.LumTail.rest (W (Proc.devRef .tc main_v2_0)) (W (Proc.devRef .tc main_v2_1))
          (Cert.LumTail.crossK (W (Proc.devRef .tc main_v2_0)) (W (Proc.devRef .tc main_v2_1))) (W (Proc.devRef .tc main_arg2)) := by
  simp only [List.flatten_cons, List.flatten_nil, List.append_nil, after_append]
  rw [s4_result, s3_pos, s3_mean, s3_zero, s2_masked, s2_count, s1_mask, s1_count, s1_err, s1_zero]
  rfl

variable (m : (ℓ : Loc nD τ sig) → Buf (Elt Ideal) ℓ)

/-- Row-major position `p` of a 24 × 24 grid is `(p / 24, p % 24)`. -/
theorem pos_div_lt (p : Fin 576) : p.val / 24 < 24 := by have := p.isLt; omega
theorem pos_mod_lt (p : Fin 576) : p.val % 24 < 24 := Nat.mod_lt _ (by decide)

/-- The region is handed the first argument array with its two grid axes laid out as one axis of 576. -/
theorem V_v0 (c : Dev nD) :
    (V m c main_v0 : (⟨S64x2048x576, .f32⟩ : BufTy).Contents (Elt Ideal))
      = shapeCast S64x2048x576 (m ((c : Thread nD τ).loc main_arg0)) shapeCasts_S64x2048x24x24_S64x2048x576 := by
  show StableHlo.after hostOps0 (fun b => m (c, b)) (Proc.devRef .tc main_v0) = _
  after_results
  rfl

/-- The same for the second argument array. -/
theorem V_v1 (c : Dev nD) :
    (V m c main_v1 : (⟨S64x2048x576, .f32⟩ : BufTy).Contents (Elt Ideal))
      = shapeCast S64x2048x576 (m ((c : Thread nD τ).loc main_arg1)) shapeCasts_S64x2048x24x24_S64x2048x576 := by
  show StableHlo.after hostOps0 (fun b => m (c, b)) (Proc.devRef .tc main_v1) = _
  after_results
  rfl

/-- A 64 × 2048 × 24 × 24 array laid out as 64 × 2048 × 576 reads, at `(b, ch, p)`, the array at `(b, ch, p / 24, p % 24)`: both are
    row-major position `(2048 b + ch) · 576 + p`. -/
theorem relaid_apply (x : (⟨S64x2048x24x24, .f32⟩ : BufTy).Contents (Elt Ideal)) (b : Fin 64) (ch : Fin 2048) (p : Fin 576) :
    shapeCast S64x2048x576 x shapeCasts_S64x2048x24x24_S64x2048x576 (ix3 b ch p)
      = x (ix4 b ch ⟨p.val / 24, pos_div_lt p⟩ ⟨p.val % 24, pos_mod_lt p⟩) :=
  shapeCast_apply x shapeCasts_S64x2048x24x24_S64x2048x576 _ _ (by
    rewrite [Shape.rowMajor_val_four, Shape.rowMajor_val_three]
    have hp := p.isLt
    show ((b.val * 2048 + ch.val) * 24 + p.val / 24) * 24 + p.val % 24 = (b.val * 2048 + ch.val) * 576 + p.val
    omega)

theorem V_v0_apply (c : Dev nD) (b : Fin 64) (ch : Fin 2048) (p : Fin 576) :
    (V m c main_v0 : (⟨S64x2048x576, .f32⟩ : BufTy).Contents (Elt Ideal)) (ix3 b ch p)
      = m ((c : Thread nD τ).loc main_arg0) (ix4 b ch ⟨p.val / 24, pos_div_lt p⟩ ⟨p.val % 24, pos_mod_lt p⟩) := by
  rw [V_v0]; exact relaid_apply _ b ch p

theorem V_v1_apply (c : Dev nD) (b : Fin 64) (ch : Fin 2048) (p : Fin 576) :
    (V m c main_v1 : (⟨S64x2048x576, .f32⟩ : BufTy).Contents (Elt Ideal)) (ix3 b ch p)
      = m ((c : Thread nD τ).loc main_arg1) (ix4 b ch ⟨p.val / 24, pos_div_lt p⟩ ⟨p.val % 24, pos_mod_lt p⟩) := by
  rw [V_v1]; exact relaid_apply _ b ch p

/-- The kernel's result: whatever the region's two result arrays hold at its end (`L2`, `L3`), the program's result buffer ends
    at the shared tail of them and of the label array as launched. The operations after the region read the two arrays the region
    wrote and the label array, which neither the region nor any operation writes. -/
theorem kernel_tail (dats : (p : Fin 1) → (c : Dev nD) → Dat τ (Elt Ideal) Unit ℕ (UR sig nD τ) ℕ (cfgs p) c) (c : Dev nD)
    (L2 L3 : (⟨S64x576, .f32⟩ : BufTy).Contents (Elt Ideal))
    (h2 : (dats 0 c).arrAt 2 cfg0.N = L2) (h3 : (dats 0 c).arrAt 3 cfg0.N = L3) :
    Pipeline.afterTail₀ cfgs dats 0 (V0 m) [hostOps1, hostOps1_1, hostOps1_2, hostOps1_3] c main_v43
      = Cert.LumTail.rest L2 L3 (Cert.LumTail.crossK L2 L3) (m ((c : Thread nD τ).loc main_arg2)) := by
  subst h2 h3
  unfold Pipeline.afterTail₀
  refine (tail_val _).trans ?_
  have e2 : Pipeline.withArrays spec0 c (V0 m c) (fun w => (dats 0 c).arrAt w cfg0.N) (Proc.devRef .tc main_v2_0)
      = (dats 0 c).arrAt 2 cfg0.N := Pipeline.withArrays_arr spec0 launch0.win.arr_inj c _ _ 2
  have e3 : Pipeline.withArrays spec0 c (V0 m c) (fun w => (dats 0 c).arrAt w cfg0.N) (Proc.devRef .tc main_v2_1)
      = (dats 0 c).arrAt 3 cfg0.N := Pipeline.withArrays_arr spec0 launch0.win.arr_inj c _ _ 3
  have ea : Pipeline.withArrays spec0 c (V0 m c) (fun w => (dats 0 c).arrAt w cfg0.N) (Proc.devRef .tc main_arg2)
      = m ((c : Thread nD τ).loc main_arg2) :=
    (Pipeline.withArrays_of_ne spec0 c (V0 m c) _ main_arg2 (by exact (by decide : ∀ w, Pipeline.arrRef spec0 w ≠ main_arg2))).trans
      (V_main_arg2 m c)
  exact congr (congr (congr (congrArg Cert.LumTail.rest e2) e3) (congr (congrArg Cert.LumTail.crossK e2) e3)) ea

end Cert.KernelIdeal.TailK

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.RefValue.lean ====
/-
  The reference side: its two luminance maps and its inner products read entry by entry, and its result as the shared tail.

  The reference squares each argument array elementwise, sums over the 2048 channels (from the initial value zero), and lays the
  24 × 24 positions of each sample out as one row of 576: `lumR a [b, p] = ∑ ch, a[b, ch, p / 24, p % 24]²`. It then forms the
  inner products of rows by contracting the last axis of both maps, `crossR lv li [p, q] = ∑ k, lv[p, k] · li[q, k]` — entry by entry
  the same sum as the plain product of `lv` with the transpose of `li` (`cross_eq`) — and from there on runs the shared tail
  operation by operation (`ref_result`). So the reference's run ends with its result at the shared tail of its own luminance maps,
  with the inner products in either spelling.
-/
import proofs.«180429_j48120813585001_2_alg».proof.Proof.Gen.ReferenceIdeal.Run
import proofs.«180429_j48120813585001_2_alg».proof.Proof.Gen.ReferenceIdeal.Read
import proofs.«180429_j48120813585001_2_alg».proof.Proof.Tail
import proofs.«180429_j48120813585001_2_alg».proof.Proof.LibDotRows

noncomputable section

open scoped BigOperators

namespace Cert.LumRef

open Cert.ReferenceIdeal Cert.ReferenceIdeal.Gen Idealize.ShloMosaic Idealize.ShloMosaic.TcCoe Idealize.SL.Sem
open Idealize.ShloMosaic.ValueIdx

/-- A sample's luminance map: the squares summed over the channels, the 24 × 24 positions as one row of 576. -/
def lumR (a : (⟨S64x2048x24x24, .f32⟩ : BufTy).Contents (Elt Ideal)) : (⟨S64x576, .f32⟩ : BufTy).Contents (Elt Ideal) :=
  shapeCast _ (Host.reduceAdd (F := Ideal) (mulf (F := Ideal) a a) (constant (F := Ideal) S_ .f32 0x00000000#32)
    reducesTo_S64x2048x24x24_S64x24x24_d1 h_S_) shapeCasts_S64x24x24_S64x576

/-- Row-major position `p` of a 24 × 24 grid is `(p / 24, p % 24)`. -/
theorem pos_div_lt (p : Fin 576) : p.val / 24 < 24 := by have := p.isLt; omega
theorem pos_mod_lt (p : Fin 576) : p.val % 24 < 24 := Nat.mod_lt _ (by decide)

/-- The map at sample `b`, position `p`: the sum over the channels of the squared entry at grid position `(p / 24, p % 24)`. The
    sum starts from the initial value zero; the reshape reads row-major position `576 b + p` of the 64 × 24 × 24 array, which is
    `(b, p / 24, p % 24)`. -/
theorem lumR_apply (a : (⟨S64x2048x24x24, .f32⟩ : BufTy).Contents (Elt Ideal)) (b : Fin 64) (p : Fin 576) :
    lumR a (ix2 b p) = ∑ ch : Fin 2048,
      a (ix4 b ch ⟨p.val / 24, pos_div_lt p⟩ ⟨p.val % 24, pos_mod_lt p⟩) * a (ix4 b ch ⟨p.val / 24, pos_div_lt p⟩ ⟨p.val % 24, pos_mod_lt p⟩) := by
  show Read.val_main_v2 (F := Ideal) a (ix2 b p) = _
  rw [Read.val_main_v2_apply, Read.val_main_v1_apply]
  simp only [Read.val_main_cst_apply, Read.val_main_v0_apply, Ideal.ofBits_def, Ideal.ofBits_zero_f32, zero_add, Ideal.mulf_def]
  refine Finset.sum_congr rfl fun ch _ => ?_
  have hb := b.isLt
  have hp := p.isLt
  have e : Read.idx_main_v1 (Read.idx_main_v2 (ix2 b p)) ch = ix4 b ch ⟨p.val / 24, pos_div_lt p⟩ ⟨p.val % 24, pos_mod_lt p⟩ :=
    funext fun d => Fin.ext (by
      match d with
      | ⟨0, _⟩ => show (b.val * 576 + p.val) / 576 = b.val; omega
      | ⟨1, _⟩ => rfl
      | ⟨2, _⟩ => show (b.val * 576 + p.val) / 24 % 24 = p.val / 24; omega
      | ⟨3, _⟩ => show (b.val * 576 + p.val) % 24 = p.val % 24; omega)
  rw [e]

/-- The inner products of rows, spelt as the contraction of the last axis of both maps. -/
def crossR (lv li : (⟨S64x576, .f32⟩ : BufTy).Contents (Elt Ideal)) : (⟨S64x64, .f32⟩ : BufTy).Contents (Elt Ideal) :=
  Host.dotGeneral (F := Ideal) (φ₁ := .f32) (φ₂ := .f32) dot_S64x576_S64x576_S64x64_1_1_0_0_n_n none lv li

/-- Entry `(p, q)` is the inner product of row `p` of `lv` with row `q` of `li`. -/
theorem crossR_apply (lv li : (⟨S64x576, .f32⟩ : BufTy).Contents (Elt Ideal)) (p q : Fin 64) :
    crossR lv li (ix2 p q) = ∑ k : Fin 576, lv (ix2 p k) * li (ix2 q k) := by
  unfold crossR
  show FloatOps.dotGeneral _ _ _ _ _ (ix2 p q) = _
  exact Cert.Lib.DotRows.dotGeneral_rows_apply (M := 64) (K := 576) (N := 64)
    dot_S64x576_S64x576_S64x64_1_1_0_0_n_n rfl _ _ lv li p q

/-- The two spellings of the inner products are one array: entry by entry both are `∑ k, lv[p, k] · li[q, k]`. -/
theorem cross_eq (lv li : (⟨S64x576, .f32⟩ : BufTy).Contents (Elt Ideal)) : Cert.LumTail.crossK lv li = crossR lv li := by
  funext i
  obtain ⟨p, q, rfl⟩ : ∃ (p : Fin 64) (q : Fin 64), i = ix2 p q := ⟨i 0, i 1, eq_ix2 i⟩
  rw [Cert.LumTail.crossK_apply, crossR_apply]

/-- The reference's result, operation by operation, is the shared tail of its luminance maps and its inner products. -/
theorem ref_result (a0 a1 : (⟨S64x2048x24x24, .f32⟩ : BufTy).Contents (Elt Ideal)) (a2 : (⟨S64, .i32⟩ : BufTy).Contents (Elt Ideal)) :
    Read.val_main_v45 (F := Ideal) a0 a1 a2 = Cert.LumTail.rest (lumR a0) (lumR a1) (crossR (lumR a0) (lumR a1)) a2 := rfl

/-- The same with the inner products spelt as the plain product with the transpose. -/
theorem ref_result_K (a0 a1 : (⟨S64x2048x24x24, .f32⟩ : BufTy).Contents (Elt Ideal)) (a2 : (⟨S64, .i32⟩ : BufTy).Contents (Elt Ideal)) :
    Read.val_main_v45 (F := Ideal) a0 a1 a2
      = Cert.LumTail.rest (lumR a0) (lumR a1) (Cert.LumTail.crossK (lumR a0) (lumR a1)) a2 := by
  rw [ref_result, cross_eq]

/-- Every weakly fair execution of the reference terminates with its result at the shared tail of the luminance maps of its own
    first two arguments (the inner products as the plain product with the transpose) and its third argument, and with the three
    arguments unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v45)
        = Cert.LumTail.rest (lumR (m' ((c.tc : Thread nD τ).loc main_arg0))) (lumR (m' ((c.tc : Thread nD τ).loc main_arg1)))
            (Cert.LumTail.crossK (lumR (m' ((c.tc : Thread nD τ).loc main_arg0))) (lumR (m' ((c.tc : Thread nD τ).loc main_arg1))))
            (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run defs _ _).mono
    (fun _ h c => ⟨(h c).1.trans ((Read.val_main_v45_eq _ _ _).trans (ref_result_K _ _ _)), (h c).2⟩)
    (Cert.ReferenceIdeal.Value.run (F := Ideal) m' ρ')

end Cert.LumRef

end
-- ==== Proof.Assemble.lean ====
/-
  The two idealized programs compute one function.

  Kernel side: the region leaves the two [64, 576] arrays at the luminance maps of the flattened inputs (sums of
  squares over the 2048 channels, accumulated block by block), and the host operations after the region apply the
  shared tail to them.  Reference side: the luminance maps are one reduction over the channel axis of the
  [64, 2048, 24, 24] inputs, then the same tail.  Flattening the 24 × 24 positions into 576 before or after the
  channel sum gives the same entry — position p is (p / 24, p % 24) —, and a sum over `Fin 2048` is the sum over
  the naturals below 2048.  The inner products of rows are spelt in two ways (product with the transpose; contraction
  of the last axes); both are  ∑ k, lv[p, k] · li[q, k].
-/
import proofs.«180429_j48120813585001_2_alg».proof.Defs
import proofs.«180429_j48120813585001_2_alg».proof.Proof.KI.Final
import proofs.«180429_j48120813585001_2_alg».proof.Proof.KI.TailK
import proofs.«180429_j48120813585001_2_alg».proof.Proof.RefValue
import proofs.«180429_j48120813585001_2_alg».proof.Proof.Gen.Pre_finite_inputs

set_option maxRecDepth 16384

noncomputable section

namespace Cert.Assemble

open Cert.KernelIdeal Cert.KernelIdeal.Gen Cert.KernelIdeal.Body Cert.KernelIdeal.Lum
open Idealize.ShloMosaic Idealize.ShloMosaic.TcCoe Idealize.ShloMosaic.ValueIdx Finset
open Idealize.SL Idealize.SL.Sem
open Idealize.ShloMosaic.Pipeline (Dat)

variable (m : (ℓ : Loc nD τ sig) → Buf (Elt Ideal) ℓ) (ρ : Dev nD → PrngReg)

/-- The kernel's luminance map of the flattened first input is the reference's luminance map of the input. -/
theorem lum_v0 (c : Dev nD) :
    lum (V m c main_v0) = Cert.LumRef.lumR (m ((c : Thread nD τ).loc main_arg0)) := by
  funext j
  obtain ⟨b, p, rfl⟩ : ∃ (b : Fin 64) (p : Fin 576), j = ix2 b p := ⟨j 0, j 1, eq_ix2 j⟩
  rw [lum_apply, Cert.LumRef.lumR_apply, Finset.sum_range]
  refine Finset.sum_congr rfl fun ch _ => ?_
  unfold Q R
  rw [dif_pos ⟨b.isLt, ch.isLt⟩]
  exact congrArg (fun z : EReal => z * z) (Cert.KernelIdeal.TailK.V_v0_apply m c b ch p)

theorem lum_v1 (c : Dev nD) :
    lum (V m c main_v1) = Cert.LumRef.lumR (m ((c : Thread nD τ).loc main_arg1)) := by
  funext j
  obtain ⟨b, p, rfl⟩ : ∃ (b : Fin 64) (p : Fin 576), j = ix2 b p := ⟨j 0, j 1, eq_ix2 j⟩
  rw [lum_apply, Cert.LumRef.lumR_apply, Finset.sum_range]
  refine Finset.sum_congr rfl fun ch _ => ?_
  unfold Q R
  rw [dif_pos ⟨b.isLt, ch.isLt⟩]
  exact congrArg (fun z : EReal => z * z) (Cert.KernelIdeal.TailK.V_v1_apply m c b ch p)

/-- The idealized kernel's run: its result is the shared tail of the luminance maps of its first two arguments and
    its third argument; the three arguments end unchanged. -/
theorem kernel_run :
    θ_run (defs (F := Ideal)) (onTc (τ := τ) (main (F := Ideal))) ⟨m, fun _ => 0, ρ⟩ fun r => ∀ c : Dev nD,
      r.2.mem ((c.tc : Thread nD τ).loc main_v43)
        = Cert.LumTail.rest (Cert.LumRef.lumR (m ((c.tc : Thread nD τ).loc main_arg0))) (Cert.LumRef.lumR (m ((c.tc : Thread nD τ).loc main_arg1)))
            (Cert.LumTail.crossK (Cert.LumRef.lumR (m ((c.tc : Thread nD τ).loc main_arg0))) (Cert.LumRef.lumR (m ((c.tc : Thread nD τ).loc main_arg1))))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v43 (Pipeline.mem_restRefs_of main_v43 (by decide) (by decide))).trans
        ((Cert.KernelIdeal.TailK.kernel_tail m (dats m) c _ _ (final2 m c) (final3 m c)).trans (by rw [lum_v0, lum_v1])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main (F := Ideal) m ρ)

/-- From memories that agree on the three arguments the idealized kernel and the idealized reference end with the
    same result: the shared tail of the same luminance maps. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩) (Cert.LumRef.run m' ρ')
  rw [(hagree c).1, (hagree c).2.1, (hagree c).2.2]

end Cert.Assemble

end
-- ==== Proof.lean ====
/-
  The certificate of the luminance-loss kernel against its jnp reference.

  Both programs map (feat_v, feat_i : f32[64, 2048, 24, 24], labels : i32[64]) to one number: the luminance maps
  lum[b, p] = ∑ over the 2048 channels of feat[b, ch, p]², then mean squares, inner products of rows, the pairwise
  error matrix, the same-label off-diagonal mask, and the masked mean.  The kernel forms the channel sums in a
  4 × 8 grid of (16 batch rows) × (256 channels), each point in four slabs of 64 channels, accumulating into an
  output block that is zeroed at channel block 0 and written back after channel block 7; the reference forms them
  in one reduction.  On the extended reals addition is associative and commutative, so the grouping does not
  matter; nothing else differs except the spelling of the inner products.  The ideal pass rewrote nothing, so
  `preserves` is `True`.  The kernel's frame holds at every float instance (`Body.frame`); the reference's frame
  is its run with the result dropped.
-/
import proofs.«180429_j48120813585001_2_alg».proof.Defs
import proofs.«180429_j48120813585001_2_alg».proof.Proof.Gen.Kernel
import proofs.«180429_j48120813585001_2_alg».proof.Proof.Gen.KernelIdeal
import proofs.«180429_j48120813585001_2_alg».proof.Proof.Gen.ReferenceIdeal
import proofs.«180429_j48120813585001_2_alg».proof.Proof.Gen.Pre_finite_inputs
import proofs.«180429_j48120813585001_2_alg».proof.Proof.K.Frame
import proofs.«180429_j48120813585001_2_alg».proof.Proof.KI.Frame
import proofs.«180429_j48120813585001_2_alg».proof.Proof.Assemble
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Assemble.algebraic⟩

end Cert.Proof

end
